-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S512x512 .f32) (main_arg12 : FVec F S512x512 .f32) (main_arg13 : FVec F S512x512 .f32) (main_arg14 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512x512 .f32) (main_arg9 : FVec F S512x512 .f32) (main_arg10 : FVec F S512x512 .f32) (main_arg11 : FVec F S512x512 .f32) (main_arg12 : FVec F S512x512 .f32) (main_arg13 : FVec F S512x512 .f32) (main_arg14 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S512x1024 .f32) (main_arg5 : FVec F S512x1024 .f32) (main_arg6 : FVec F S512x1024 .f32) (main_arg7 : FVec F S512x512 .f32) (main_arg8 : FVec F S512x512 .f32) (main_arg9 : FVec F S512x512 .f32) (main_arg10 : FVec F S512x512 .f32) (main_arg11 : FVec F S512x512 .f32) (main_arg12 : FVec F S512x512 .f32) (main_arg13 : FVec F S512x512 .f32) (main_arg14 : FVec F S512x512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x1024 .f32) (main_arg1 : FVec F S16384x512 .f32) (main_arg2 : FVec F S16384x512 .f32) (main_arg3 : FVec F S512x1024 .f32) (main_arg4 : FVec F S512x1024 .f32) (main_arg5 : FVec F S512x1024 .f32) (main_arg6 : FVec F S512x1024 .f32) (main_arg7 : FVec F S512x512 .f32) (main_arg8 : FVec F S512x512 .f32) (main_arg9 : FVec F S512x512 .f32) (main_arg10 : FVec F S512x512 .f32) (main_arg11 : FVec F S512x512 .f32) (main_arg12 : FVec F S512x512 .f32) (main_arg13 : FVec F S512x512 .f32) (main_arg14 : FVec F S512x512 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S2048x1024 : Shape := ⟨2, ![2048, 1024]⟩
abbrev S1024x2048 : Shape := ⟨2, ![1024, 2048]⟩
abbrev S1536x512 : Shape := ⟨2, ![1536, 512]⟩
abbrev S512x1536 : Shape := ⟨2, ![512, 1536]⟩
abbrev S512x2048 : Shape := ⟨2, ![512, 2048]⟩

abbrev nBuf : Space → Nat
  | .hbm => 29
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S2048x1024, .f32⟩
  | .hbm, ⟨16, _⟩ => ⟨S1024x2048, .f32⟩
  | .hbm, ⟨17, _⟩ => ⟨S1024x2048, .bf16⟩
  | .hbm, ⟨18, _⟩ => ⟨S1536x512, .f32⟩
  | .hbm, ⟨19, _⟩ => ⟨S512x1536, .f32⟩
  | .hbm, ⟨20, _⟩ => ⟨S512x1536, .bf16⟩
  | .hbm, ⟨21, _⟩ => ⟨S1536x512, .f32⟩
  | .hbm, ⟨22, _⟩ => ⟨S512x1536, .f32⟩
  | .hbm, ⟨23, _⟩ => ⟨S512x1536, .bf16⟩
  | .hbm, ⟨24, _⟩ => ⟨S512x512, .f32⟩
  | .hbm, ⟨25, _⟩ => ⟨S512x512, .bf16⟩
  | .hbm, ⟨26, _⟩ => ⟨S512x512, .f32⟩
  | .hbm, ⟨27, _⟩ => ⟨S512x512, .bf16⟩
  | .hbm, ⟨28, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x2048, .bf16⟩
  | .local _ .vmem, ⟨7, _⟩ => ⟨S512x1536, .bf16⟩
  | .local _ .vmem, ⟨8, _⟩ => ⟨S512x1536, .bf16⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S512x1024_S512x1024_S512x1024_S512x1024_S2048x1024_d0 : Shape.Concatenates [S512x1024, S512x1024, S512x1024, S512x1024] S2048x1024 0
  transposes_S2048x1024_S1024x2048_1_0 : S2048x1024.Transposes [1, 0] S1024x2048
  bitsLt_bf16_f32 : FTy.bits .bf16 < FTy.bits .f32
  concatenates_S512x512_S512x512_S512x512_S1536x512_d0 : Shape.Concatenates [S512x512, S512x512, S512x512] S1536x512 0
  transposes_S1536x512_S512x1536_1_0 : S1536x512.Transposes [1, 0] S512x1536
  transposes_S512x512_S512x512_1_0 : S512x512.Transposes [1, 0] S512x512
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  shapeCasts_S512x512_S512x512 : S512x512.ShapeCasts S512x512
  dot_S512x1024_S1024x2048_S512x2048_1_0_0_1_n_n_wf : DotDims.WF S512x1024 S1024x2048 S512x2048 [1] [0] [0] [1] [] []
  dot_S512x512_S512x1536_S512x1536_1_0_0_1_n_n_wf : DotDims.WF S512x512 S512x1536 S512x1536 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x512 : Shape := ⟨2, ![16384, 512]⟩
abbrev S512x1024 : Shape := ⟨2, ![512, 1024]⟩
abbrev S512x512 : Shape := ⟨2, ![512, 512]⟩
abbrev S1024x512 : Shape := ⟨2, ![1024, 512]⟩
abbrev S_ : Shape := ⟨0, ![]⟩

abbrev nBuf : Space → Nat
  | .hbm => 80
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S1024x512, .f32⟩
  | .hbm, ⟨16, _⟩ => ⟨S16384x512, .f32⟩
  | .hbm, ⟨17, _⟩ => ⟨S512x512, .f32⟩
  | .hbm, ⟨18, _⟩ => ⟨S16384x512, .f32⟩
  | .hbm, ⟨19, _⟩ => ⟨S16384x512, .f32⟩
  | .hbm, ⟨20, _⟩ => ⟨S512x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S1024x512, .f32⟩
  | .hbm, ⟨32, _⟩ => ⟨S16384x512, .f32⟩
  | .hbm, ⟨33, _⟩ => ⟨S512x512, .f32⟩
  | .hbm, ⟨34, _⟩ => ⟨S16384x512, .f32⟩
  | .hbm, ⟨35, _⟩ => ⟨S16384x512, .f32⟩
  | .hbm, ⟨36, _⟩ => ⟨S512x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S1024x512, .f32⟩
  | .hbm, ⟨48, _⟩ => ⟨S16384x512, .f32⟩
  | .hbm, ⟨49, _⟩ => ⟨S512x512, .f32⟩
  | .hbm, ⟨50, _⟩ => ⟨S16384x512, .f32⟩
  | .hbm, ⟨51, _⟩ => ⟨S16384x512, .f32⟩
  | .hbm, ⟨52, _⟩ => ⟨S512x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x512, .f32⟩
  | .hbm, ⟨57, _⟩ => ⟨S_, .f32⟩
  | .hbm, ⟨58, _⟩ => ⟨S16384x512, .f32⟩
  | .hbm, ⟨59, _⟩ => ⟨S16384x512, .f32⟩
  | .hbm, ⟨60, _⟩ => ⟨S_, .f32⟩
  | .hbm, ⟨61, _⟩ => ⟨S16384x512, .f32⟩
  | .hbm, ⟨62, _⟩ => ⟨S16384x512, .f32⟩
  | .hbm, ⟨63, _⟩ => ⟨S1024x512, .f32⟩
  | .hbm, ⟨64, _⟩ => ⟨S16384x512, .f32⟩
  | .hbm, ⟨65, _⟩ => ⟨S16384x512, .f32⟩
  | .hbm, ⟨66, _⟩ => ⟨S512x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S512x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]

class Facts₀ : Prop where
  transposes_S512x1024_S1024x512_1_0 : S512x1024.Transposes [1, 0] S1024x512
  transposes_S512x512_S512x512_1_0 : S512x512.Transposes [1, 0] S512x512
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []
  dot_S16384x512_S512x512_S16384x512_1_0_0_1_n_n_wf : DotDims.WF S16384x512 S512x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf

class Facts : Prop extends Facts₀ where

variable [Facts]
-- ==== Proof.WRegionEntry.lean ====
/-
  What the one region of @main finds when it is entered, and what a run of the region gives back.

  @main is thirteen host operations — the four x-gate weight matrices stacked along their rows, transposed and
  narrowed; likewise the three speaker-side and the three addressee-side gate matrices; the two candidate-state
  matrices transposed and narrowed — followed by the one pallas_call over 32 row tiles. None of the host
  operations writes an argument array, so each argument is, at the region's entry, what the launch put there; a
  window's block at a grid point is read off the entry arrays; and a run of the region to the library's frame post
  leaves every argument array as launched.
-/
import proofs.«138240_j61778809585745_2_alg».proof.Proof.Gen.Kernel.Launch
import proofs.«138240_j61778809585745_2_alg».proof.Proof.Gen.Kernel.Skeleton
import proofs.«138240_j61778809585745_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main up to the region -/

/-- Core `c`'s buffers when the region is entered: the launch memory after the thirteen host operations. -/
abbrev atEntry (c : Dev nD) (b : Ref sig .tc) : Buf (Elt F) ((c : Thread nD τ).loc b) :=
  StableHlo.after hostOps0 (fun b => m (c, b)) b

/-- No host operation of the prefix allocates a buffer. -/
theorem prefix_allocates_nothing : (hostOps0 : List (HloOp τ sig (Elt F))).Forall fun op => op.fresh = ∅ := by
  simp only [List.Forall]; repeat' constructor

/-- @main is its host prefix and then the region, which is entered on `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- None of the thirteen host operations writes `main_arg0`: the region finds it as it was launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg1`: the region finds it as it was launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg2`: the region finds it as it was launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg3`: the region finds it as it was launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg4`: the region finds it as it was launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg5`: the region finds it as it was launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg6`: the region finds it as it was launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg7`: the region finds it as it was launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg8`: the region finds it as it was launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg9`: the region finds it as it was launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg10`: the region finds it as it was launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg11`: the region finds it as it was launched. -/
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg12`: the region finds it as it was launched. -/
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg13`: the region finds it as it was launched. -/
theorem entry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg14`: the region finds it as it was launched. -/
theorem entry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0: its current staging buffer holds its block at every grid point, whether the pipeline fetched it
    there or not (an unfetched window's block index has not moved), for any proof data over the entry arrays whose
    body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1: its current staging buffer holds its block at every grid point, whether the pipeline fetched it
    there or not (an unfetched window's block index has not moved), for any proof data over the entry arrays whose
    body leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2: its current staging buffer holds its block at every grid point, whether the pipeline fetched it
    there or not (an unfetched window's block index has not moved), for any proof data over the entry arrays whose
    body leaves the block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3: its current staging buffer holds its block at every grid point, whether the pipeline fetched it
    there or not (an unfetched window's block index has not moved), for any proof data over the entry arrays whose
    body leaves the block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4: its current staging buffer holds its block at every grid point, whether the pipeline fetched it
    there or not (an unfetched window's block index has not moved), for any proof data over the entry arrays whose
    body leaves the block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5: its current staging buffer holds its block at every grid point, whether the pipeline fetched it
    there or not (an unfetched window's block index has not moved), for any proof data over the entry arrays whose
    body leaves the block in place. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6: its current staging buffer holds its block at every grid point, whether the pipeline fetched it
    there or not (an unfetched window's block index has not moved), for any proof data over the entry arrays whose
    body leaves the block in place. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- Input window 7: its current staging buffer holds its block at every grid point, whether the pipeline fetched it
    there or not (an unfetched window's block index has not moved), for any proof data over the entry arrays whose
    body leaves the block in place. -/
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run of the region -/

/-- A run to the library's frame post, for any proof data over the entry arrays, leaves all fifteen argument arrays
    as launched: the three staged row-tiled inputs are never written back, and the twelve weight matrices are staged
    by no window. -/
theorem arguments_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩) h

end Cert.Kernel.Cell

end
-- ==== Proof.WCellBody.lean ====
/-
  The body of the kernel on one row tile.

  At a grid point the body reads a 512-row tile of the encoder states (512 x 1024), of the speaker vectors and of
  the addressee vectors (512 x 512 each), and the five resident weight matrices: the stacked x-gate matrix
  (1024 x 2048: reset, second reset, update, candidate, side by side), the stacked speaker-side and addressee-side
  gate matrices (512 x 1536 each) and the two candidate-state matrices (512 x 512 each). It stores one 512 x 512
  tile: with r = sigmoid of the first column group's three products summed, p and z likewise of the second and
  third, h = tanh (x-candidate + (r * spk) W + (p * adr) V), the tile is (1 - z) * spk + z * h. The body also
  loads the output tile once before storing it and never uses what it loaded, so the tile it leaves does not
  depend on what the output buffer held.

  This module names that tile as one term over the eight input blocks — the single store's payload, laid on the
  whole tile — and proves the body's triple: on whole staging buffers holding the input blocks it runs, returns
  the inputs as they were, and leaves the output buffer at that term.
-/
import proofs.«138240_j61778809585745_2_alg».proof.Proof.WRegionEntry

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and the one store take a whole buffer -/

abbrev all512x512 : Rect S512x512 := Rect.unit (s := S512x512) ![0, 0] S512x512.size inb_S512x512_S512x512_0_0
abbrev all512x1024 : Rect S512x1024 := Rect.unit (s := S512x1024) ![0, 0] S512x1024.size inb_S512x1024_S512x1024_0_0
abbrev all1024x2048 : Rect S1024x2048 := Rect.unit (s := S1024x2048) ![0, 0] S1024x2048.size inb_S1024x2048_S1024x2048_0_0
abbrev all512x1536 : Rect S512x1536 := Rect.unit (s := S512x1536) ![0, 0] S512x1536.size inb_S512x1536_S512x1536_0_0

/-! ## What the body leaves in the output tile -/

/-- The output tile after the body, from the eight input blocks: the one store's payload — the gated
    interpolation `(1 - z) * spk + z * h` over the three gates and the candidate state — on the whole tile. -/
def cellTile (enc : Vec F S512x1024 .f32) (spk adr : Vec F S512x512 .f32) (wx : Vec F S1024x2048 .bf16)
    (wh wv : Vec F S512x1536 .bf16) (uh uv : Vec F S512x512 .bf16) : Vec F S512x512 .f32 :=
  View.canon [⟨all512x512, k0_pay1 (View.ld spk all512x512)
    (k0_pay5 (View.ld enc all512x1024) (View.ld wx all1024x2048))
    (k0_pay6 (View.ld spk all512x512) (View.ld adr all512x512) (View.ld enc all512x1024) (View.ld wx all1024x2048) (View.ld wh all512x1536) (View.ld wv all512x1536))
    (k0_pay7 (View.ld spk all512x512) (View.ld adr all512x512) (View.ld enc all512x1024) (View.ld wx all1024x2048) (View.ld wh all512x1536) (View.ld wv all512x1536))
    (k0_pay8 (View.ld spk all512x512) (View.ld adr all512x512) (View.ld enc all512x1024) (View.ld wx all1024x2048) (View.ld wh all512x1536) (View.ld wv all512x1536) (View.ld uh all512x512))
    (View.ld uv all512x512)⟩]

/-- The one store takes the whole tile, so it covers it. -/
theorem tile_covered (p : Vec F S512x512 .f32) (y : S512x512.Idx) :
    ∃ pc ∈ ([⟨all512x512, p⟩] : List (View.Piece (Elt F) S512x512 .f32)), y ∈ pc.1.set :=
  View.cover_of_tiled [⟨all512x512, p⟩] S512x512.size (by rfl) y

/-! ## The body's triple -/

set_option maxHeartbeats 4000000 in
/-- On whole staging buffers, the eight inputs' at contents read as `enc … uv` and the output's at anything, the body
    runs to a continuation that holds the inputs' as they were and the output's at `cellTile` of the inputs. -/
theorem body_runs (c : Dev nD) (E : Set ℕ) (i : grid0.Coords)
    (arg1 : Memref sig .tc .vmem S512x1024 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1024x2048 .bf16) (harg4 : arg4.IsWhole)
    (arg5 : Memref sig .tc .vmem S512x1536 .bf16) (harg5 : arg5.IsWhole) (arg6 : Memref sig .tc .vmem S512x1536 .bf16) (harg6 : arg6.IsWhole)
    (arg7 : Memref sig .tc .vmem S512x512 .bf16) (harg7 : arg7.IsWhole) (arg8 : Memref sig .tc .vmem S512x512 .bf16) (harg8 : arg8.IsWhole)
    (arg9 : Memref sig .tc .vmem S512x512 .f32) (harg9 : arg9.IsWhole)
    (enc : Vec F S512x1024 .f32) (spk adr : Vec F S512x512 .f32) (wx : Vec F S1024x2048 .bf16)
    (wh wv : Vec F S512x1536 .bf16) (uh uv : Vec F S512x512 .bf16) (K : PUnit → sProp 𝕄) :
    iprop(owns (c : Thread nD τ) arg1 fullShare enc ∗ owns (c : Thread nD τ) arg2 fullShare spk ∗ owns (c : Thread nD τ) arg3 fullShare adr
        ∗ owns (c : Thread nD τ) arg4 fullShare wx ∗ owns (c : Thread nD τ) arg5 fullShare wh ∗ owns (c : Thread nD τ) arg6 fullShare wv
        ∗ owns (c : Thread nD τ) arg7 fullShare uh ∗ owns (c : Thread nD τ) arg8 fullShare uv ∗ (∃ d, owns (c : Thread nD τ) arg9 fullShare d)
        ∗ (iprop(owns (c : Thread nD τ) arg1 fullShare enc ∗ owns (c : Thread nD τ) arg2 fullShare spk ∗ owns (c : Thread nD τ) arg3 fullShare adr
            ∗ owns (c : Thread nD τ) arg4 fullShare wx ∗ owns (c : Thread nD τ) arg5 fullShare wh ∗ owns (c : Thread nD τ) arg6 fullShare wv
            ∗ owns (c : Thread nD τ) arg7 fullShare uh ∗ owns (c : Thread nD τ) arg8 fullShare uv
            ∗ owns (c : Thread nD τ) arg9 fullShare (cellTile enc spk adr wx wh wv uh uv)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (tile_covered _)

end Cert.Kernel.Cell

end
-- ==== Proof.WCellRun.lean ====
/-
  The run of the region: 32 grid points, one row tile each.

  The proof data says what every staging buffer holds after the body at each point: an input's buffer still its
  block (the body only reads it), the output's buffer the tile `cellTile` of the point's eight input blocks. No
  scratch, no semaphore of the kernel's own, nothing carried from one point to the next: the invariant is the
  class's. The body obligation at a generic point is the body's triple at the point's blocks; the library's frame
  run then gives every weakly fair execution of @main: it terminates, nothing faults, the output array ends at the
  tiles written back and every other buffer as the region found it — in particular the fifteen arguments as launched.
-/
import proofs.«138240_j61778809585745_2_alg».proof.Proof.WCellBody

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the tile computed from the point's input blocks; the class's invariant; full shares; nothing owed. -/
def tiles (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => cellTile (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

/-- The proof data's arrays are the entry arrays (by projection: the fold over the host prefix is never opened). -/
theorem entry_arrays (c : Dev nD) (w : Fin cfg0.W) : (tiles m 0 c).A w = atEntry m c (Pipeline.arrRef spec0 w) := by
  dsimp only [tiles]

/-- What the body leaves, window by window. -/
theorem left0 (c : Dev nD) (t : Fin cfg0.N) : (tiles m 0 c).after 0 t = blockAt m c 0 t := by dsimp only [tiles]
theorem left1 (c : Dev nD) (t : Fin cfg0.N) : (tiles m 0 c).after 1 t = blockAt m c 1 t := by dsimp only [tiles]
theorem left2 (c : Dev nD) (t : Fin cfg0.N) : (tiles m 0 c).after 2 t = blockAt m c 2 t := by dsimp only [tiles]
theorem left3 (c : Dev nD) (t : Fin cfg0.N) : (tiles m 0 c).after 3 t = blockAt m c 3 t := by dsimp only [tiles]
theorem left4 (c : Dev nD) (t : Fin cfg0.N) : (tiles m 0 c).after 4 t = blockAt m c 4 t := by dsimp only [tiles]
theorem left5 (c : Dev nD) (t : Fin cfg0.N) : (tiles m 0 c).after 5 t = blockAt m c 5 t := by dsimp only [tiles]
theorem left6 (c : Dev nD) (t : Fin cfg0.N) : (tiles m 0 c).after 6 t = blockAt m c 6 t := by dsimp only [tiles]
theorem left7 (c : Dev nD) (t : Fin cfg0.N) : (tiles m 0 c).after 7 t = blockAt m c 7 t := by dsimp only [tiles]
theorem left8 (c : Dev nD) (t : Fin cfg0.N) : (tiles m 0 c).after 8 t = cellTile (blockAt m c 0 t) (blockAt m c 1 t) (blockAt m c 2 t) (blockAt m c 3 t) (blockAt m c 4 t) (blockAt m c 5 t) (blockAt m c 6 t) (blockAt m c 7 t) := by dsimp only [tiles]

/-- Each input's current staging buffer holds its block at every point. -/
theorem staged0 (c : Dev nD) (t : Fin cfg0.N) (d) : (tiles m 0 c).before 0 t d = blockAt m c 0 t :=
  staged0_of m (tiles m 0 c) (entry_arrays m c 0) (left0 m c) t d
theorem staged1 (c : Dev nD) (t : Fin cfg0.N) (d) : (tiles m 0 c).before 1 t d = blockAt m c 1 t :=
  staged1_of m (tiles m 0 c) (entry_arrays m c 1) (left1 m c) t d
theorem staged2 (c : Dev nD) (t : Fin cfg0.N) (d) : (tiles m 0 c).before 2 t d = blockAt m c 2 t :=
  staged2_of m (tiles m 0 c) (entry_arrays m c 2) (left2 m c) t d
theorem staged3 (c : Dev nD) (t : Fin cfg0.N) (d) : (tiles m 0 c).before 3 t d = blockAt m c 3 t :=
  staged3_of m (tiles m 0 c) (entry_arrays m c 3) (left3 m c) t d
theorem staged4 (c : Dev nD) (t : Fin cfg0.N) (d) : (tiles m 0 c).before 4 t d = blockAt m c 4 t :=
  staged4_of m (tiles m 0 c) (entry_arrays m c 4) (left4 m c) t d
theorem staged5 (c : Dev nD) (t : Fin cfg0.N) (d) : (tiles m 0 c).before 5 t d = blockAt m c 5 t :=
  staged5_of m (tiles m 0 c) (entry_arrays m c 5) (left5 m c) t d
theorem staged6 (c : Dev nD) (t : Fin cfg0.N) (d) : (tiles m 0 c).before 6 t d = blockAt m c 6 t :=
  staged6_of m (tiles m 0 c) (entry_arrays m c 6) (left6 m c) t d
theorem staged7 (c : Dev nD) (t : Fin cfg0.N) (d) : (tiles m 0 c).before 7 t d = blockAt m c 7 t :=
  staged7_of m (tiles m 0 c) (entry_arrays m c 7) (left7 m c) t d

/-! ## The body obligation at a generic point -/

/-- What the body is called with at point `t`, the windows one by one, -/
def atCall (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d))
    ∗ (∃ d, owns (c : Thread nD τ) (st0_4 t) fullShare ((tiles m 0 c).before 4 t d))
    ∗ (∃ d, owns (c : Thread nD τ) (st0_5 t) fullShare ((tiles m 0 c).before 5 t d))
    ∗ (∃ d, owns (c : Thread nD τ) (st0_6 t) fullShare ((tiles m 0 c).before 6 t d))
    ∗ (∃ d, owns (c : Thread nD τ) (st0_7 t) fullShare ((tiles m 0 c).before 7 t d))
    ∗ (∃ d, owns (c : Thread nD τ) (st0_8 t) fullShare ((tiles m 0 c).before 8 t d)))

/-- and what it returns. -/
def atReturn (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t)
    ∗ owns (c : Thread nD τ) (st0_4 t) fullShare ((tiles m 0 c).after 4 t)
    ∗ owns (c : Thread nD τ) (st0_5 t) fullShare ((tiles m 0 c).after 5 t)
    ∗ owns (c : Thread nD τ) (st0_6 t) fullShare ((tiles m 0 c).after 6 t)
    ∗ owns (c : Thread nD τ) (st0_7 t) fullShare ((tiles m 0 c).after 7 t)
    ∗ owns (c : Thread nD τ) (st0_8 t) fullShare ((tiles m 0 c).after 8 t))

set_option maxHeartbeats 2000000 in
/-- The body at any point: the inputs' buffers hold the point's blocks, so the body's triple applies; the invariant
    and the core's obligations pass through unread. -/
theorem point_runs (c : Dev nD) (t : Fin cfg0.N) :
    atCall m c t ⊢ wp frame (wpE (defs₀ (F := F)) Variants.none c none) Set.univ (bodyAt0 t) (fun _ => atReturn m c t) := by
  unfold atCall atReturn bodyAt0
  simp only [staged0, staged1, staged2, staged3, staged4, staged5, staged6, staged7]
  rw [show (tiles m 0 c).Φ t.succ = (tiles m 0 c).Φ t.castSucc from rfl,
    show (tiles m 0 c).owesAt () t.succ = (tiles m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem every_point (c : Dev nD) : BodyObligation (tiles (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of @main terminates, and every final state has
    each window's array at what the proof data's write-backs make of it and every other unscoped buffer as the region
    found it. -/
theorem region_runs : θ_run defs (onTc (τ := τ) (main (F := F))) (s₀ m ρ) (Pipeline.FramePost cfgs (tiles m) 0 (atEntry m)) :=
  Pipeline.θ_run_frame cfgs (tiles m) (0 : Fin 1) launch0 defs₀ Variants.none m ρ main
    (hbody := fun c => (every_point m c).loose) (hshare := fun c => (tiles m 0 c).share_full fun _ => rfl)
    (howed := fun _ _ => rfl) (V := atEntry m) (hmain := main_to_region m Variants.none) (hA := entry_arrays m) (hΦ := fun _ _ => rfl)

/-- The frame: @main runs to the end, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  arguments_kept m ρ (tiles m) (entry_arrays m) (region_runs m ρ)

end Cert.Kernel.Cell

end
-- ==== Proof.IRegionEntry.lean ====
/-
  What the one region of @main finds when it is entered, and what a run of the region gives back.

  @main is thirteen host operations — the four x-gate weight matrices stacked along their rows, transposed and
  narrowed; likewise the three speaker-side and the three addressee-side gate matrices; the two candidate-state
  matrices transposed and narrowed — followed by the one pallas_call over 32 row tiles. None of the host
  operations writes an argument array, so each argument is, at the region's entry, what the launch put there; a
  window's block at a grid point is read off the entry arrays; and a run of the region to the library's frame post
  leaves every argument array as launched.
-/
import proofs.«138240_j61778809585745_2_alg».proof.Proof.Gen.KernelIdeal.Launch
import proofs.«138240_j61778809585745_2_alg».proof.Proof.Gen.KernelIdeal.Skeleton
import proofs.«138240_j61778809585745_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main up to the region -/

/-- Core `c`'s buffers when the region is entered: the launch memory after the thirteen host operations. -/
abbrev atEntry (c : Dev nD) (b : Ref sig .tc) : Buf (Elt F) ((c : Thread nD τ).loc b) :=
  StableHlo.after hostOps0 (fun b => m (c, b)) b

/-- No host operation of the prefix allocates a buffer. -/
theorem prefix_allocates_nothing : (hostOps0 : List (HloOp τ sig (Elt F))).Forall fun op => op.fresh = ∅ := by
  simp only [List.Forall]; repeat' constructor

/-- @main is its host prefix and then the region, which is entered on `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- None of the thirteen host operations writes `main_arg0`: the region finds it as it was launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg1`: the region finds it as it was launched. -/
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg2`: the region finds it as it was launched. -/
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg3`: the region finds it as it was launched. -/
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg4`: the region finds it as it was launched. -/
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg5`: the region finds it as it was launched. -/
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg6`: the region finds it as it was launched. -/
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg7`: the region finds it as it was launched. -/
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg8`: the region finds it as it was launched. -/
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg9`: the region finds it as it was launched. -/
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg10`: the region finds it as it was launched. -/
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg11`: the region finds it as it was launched. -/
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg12`: the region finds it as it was launched. -/
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg13`: the region finds it as it was launched. -/
theorem entry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- None of the thirteen host operations writes `main_arg14`: the region finds it as it was launched. -/
theorem entry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0: its current staging buffer holds its block at every grid point, whether the pipeline fetched it
    there or not (an unfetched window's block index has not moved), for any proof data over the entry arrays whose
    body leaves the block in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1: its current staging buffer holds its block at every grid point, whether the pipeline fetched it
    there or not (an unfetched window's block index has not moved), for any proof data over the entry arrays whose
    body leaves the block in place. -/
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2: its current staging buffer holds its block at every grid point, whether the pipeline fetched it
    there or not (an unfetched window's block index has not moved), for any proof data over the entry arrays whose
    body leaves the block in place. -/
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3: its current staging buffer holds its block at every grid point, whether the pipeline fetched it
    there or not (an unfetched window's block index has not moved), for any proof data over the entry arrays whose
    body leaves the block in place. -/
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4: its current staging buffer holds its block at every grid point, whether the pipeline fetched it
    there or not (an unfetched window's block index has not moved), for any proof data over the entry arrays whose
    body leaves the block in place. -/
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Input window 5: its current staging buffer holds its block at every grid point, whether the pipeline fetched it
    there or not (an unfetched window's block index has not moved), for any proof data over the entry arrays whose
    body leaves the block in place. -/
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Input window 6: its current staging buffer holds its block at every grid point, whether the pipeline fetched it
    there or not (an unfetched window's block index has not moved), for any proof data over the entry arrays whose
    body leaves the block in place. -/
theorem staged6_of {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-- Input window 7: its current staging buffer holds its block at every grid point, whether the pipeline fetched it
    there or not (an unfetched window's block index has not moved), for any proof data over the entry arrays whose
    body leaves the block in place. -/
theorem staged7_of {c : Dev nD} (dat : Dat τ (Elt F) Unit ℕ (UR sig nD τ) ℕ cfg0 c) (hA : dat.A 7 = atEntry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run of the region -/

/-- A run to the library's frame post, for any proof data over the entry arrays, leaves all fifteen argument arrays
    as launched: the three staged row-tiled inputs are never written back, and the twelve weight matrices are staged
    by no window. -/
theorem arguments_kept (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (entry_arg0 m c))),
      ((h c).1 1).trans (((dats 0 c).arrAt_in 1 rfl _).trans ((hA c 1).trans (entry_arg1 m c))),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩) h

end Cert.KernelIdeal.Cell

end
-- ==== Proof.ICellBody.lean ====
/-
  The body of the kernel on one row tile.

  At a grid point the body reads a 512-row tile of the encoder states (512 x 1024), of the speaker vectors and of
  the addressee vectors (512 x 512 each), and the five resident weight matrices: the stacked x-gate matrix
  (1024 x 2048: reset, second reset, update, candidate, side by side), the stacked speaker-side and addressee-side
  gate matrices (512 x 1536 each) and the two candidate-state matrices (512 x 512 each). It stores one 512 x 512
  tile: with r = sigmoid of the first column group's three products summed, p and z likewise of the second and
  third, h = tanh (x-candidate + (r * spk) W + (p * adr) V), the tile is (1 - z) * spk + z * h. The body also
  loads the output tile once before storing it and never uses what it loaded, so the tile it leaves does not
  depend on what the output buffer held.

  This module names that tile as one term over the eight input blocks — the single store's payload, laid on the
  whole tile — and proves the body's triple: on whole staging buffers holding the input blocks it runs, returns
  the inputs as they were, and leaves the output buffer at that term.
-/
import proofs.«138240_j61778809585745_2_alg».proof.Proof.IRegionEntry

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and the one store take a whole buffer -/

abbrev all512x512 : Rect S512x512 := Rect.unit (s := S512x512) ![0, 0] S512x512.size inb_S512x512_S512x512_0_0
abbrev all512x1024 : Rect S512x1024 := Rect.unit (s := S512x1024) ![0, 0] S512x1024.size inb_S512x1024_S512x1024_0_0
abbrev all1024x2048 : Rect S1024x2048 := Rect.unit (s := S1024x2048) ![0, 0] S1024x2048.size inb_S1024x2048_S1024x2048_0_0
abbrev all512x1536 : Rect S512x1536 := Rect.unit (s := S512x1536) ![0, 0] S512x1536.size inb_S512x1536_S512x1536_0_0

/-! ## What the body leaves in the output tile -/

/-- The output tile after the body, from the eight input blocks: the one store's payload — the gated
    interpolation `(1 - z) * spk + z * h` over the three gates and the candidate state — on the whole tile. -/
def cellTile (enc : Vec F S512x1024 .f32) (spk adr : Vec F S512x512 .f32) (wx : Vec F S1024x2048 .bf16)
    (wh wv : Vec F S512x1536 .bf16) (uh uv : Vec F S512x512 .bf16) : Vec F S512x512 .f32 :=
  View.canon [⟨all512x512, k0_pay1 (View.ld spk all512x512)
    (k0_pay5 (View.ld enc all512x1024) (View.ld wx all1024x2048))
    (k0_pay6 (View.ld spk all512x512) (View.ld adr all512x512) (View.ld enc all512x1024) (View.ld wx all1024x2048) (View.ld wh all512x1536) (View.ld wv all512x1536))
    (k0_pay7 (View.ld spk all512x512) (View.ld adr all512x512) (View.ld enc all512x1024) (View.ld wx all1024x2048) (View.ld wh all512x1536) (View.ld wv all512x1536))
    (k0_pay8 (View.ld spk all512x512) (View.ld adr all512x512) (View.ld enc all512x1024) (View.ld wx all1024x2048) (View.ld wh all512x1536) (View.ld wv all512x1536) (View.ld uh all512x512))
    (View.ld uv all512x512)⟩]

/-- The one store takes the whole tile, so it covers it. -/
theorem tile_covered (p : Vec F S512x512 .f32) (y : S512x512.Idx) :
    ∃ pc ∈ ([⟨all512x512, p⟩] : List (View.Piece (Elt F) S512x512 .f32)), y ∈ pc.1.set :=
  View.cover_of_tiled [⟨all512x512, p⟩] S512x512.size (by rfl) y

/-! ## The body's triple -/

set_option maxHeartbeats 4000000 in
/-- On whole staging buffers, the eight inputs' at contents read as `enc … uv` and the output's at anything, the body
    runs to a continuation that holds the inputs' as they were and the output's at `cellTile` of the inputs. -/
theorem body_runs (c : Dev nD) (E : Set ℕ) (i : grid0.Coords)
    (arg1 : Memref sig .tc .vmem S512x1024 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S1024x2048 .bf16) (harg4 : arg4.IsWhole)
    (arg5 : Memref sig .tc .vmem S512x1536 .bf16) (harg5 : arg5.IsWhole) (arg6 : Memref sig .tc .vmem S512x1536 .bf16) (harg6 : arg6.IsWhole)
    (arg7 : Memref sig .tc .vmem S512x512 .bf16) (harg7 : arg7.IsWhole) (arg8 : Memref sig .tc .vmem S512x512 .bf16) (harg8 : arg8.IsWhole)
    (arg9 : Memref sig .tc .vmem S512x512 .f32) (harg9 : arg9.IsWhole)
    (enc : Vec F S512x1024 .f32) (spk adr : Vec F S512x512 .f32) (wx : Vec F S1024x2048 .bf16)
    (wh wv : Vec F S512x1536 .bf16) (uh uv : Vec F S512x512 .bf16) (K : PUnit → sProp 𝕄) :
    iprop(owns (c : Thread nD τ) arg1 fullShare enc ∗ owns (c : Thread nD τ) arg2 fullShare spk ∗ owns (c : Thread nD τ) arg3 fullShare adr
        ∗ owns (c : Thread nD τ) arg4 fullShare wx ∗ owns (c : Thread nD τ) arg5 fullShare wh ∗ owns (c : Thread nD τ) arg6 fullShare wv
        ∗ owns (c : Thread nD τ) arg7 fullShare uh ∗ owns (c : Thread nD τ) arg8 fullShare uv ∗ (∃ d, owns (c : Thread nD τ) arg9 fullShare d)
        ∗ (iprop(owns (c : Thread nD τ) arg1 fullShare enc ∗ owns (c : Thread nD τ) arg2 fullShare spk ∗ owns (c : Thread nD τ) arg3 fullShare adr
            ∗ owns (c : Thread nD τ) arg4 fullShare wx ∗ owns (c : Thread nD τ) arg5 fullShare wh ∗ owns (c : Thread nD τ) arg6 fullShare wv
            ∗ owns (c : Thread nD τ) arg7 fullShare uh ∗ owns (c : Thread nD τ) arg8 fullShare uv
            ∗ owns (c : Thread nD τ) arg9 fullShare (cellTile enc spk adr wx wh wv uh uv)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (tile_covered _)

end Cert.KernelIdeal.Cell

end
-- ==== Proof.ICellRun.lean ====
/-
  The run of the region: 32 grid points, one row tile each.

  The proof data says what every staging buffer holds after the body at each point: an input's buffer still its
  block (the body only reads it), the output's buffer the tile `cellTile` of the point's eight input blocks. No
  scratch, no semaphore of the kernel's own, nothing carried from one point to the next: the invariant is the
  class's. The body obligation at a generic point is the body's triple at the point's blocks; the library's frame
  run then gives every weakly fair execution of @main: it terminates, nothing faults, the output array ends at the
  tiles written back and every other buffer as the region found it — in particular the fifteen arguments as launched.
-/
import proofs.«138240_j61778809585745_2_alg».proof.Proof.ICellBody

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the output's at the tile computed from the point's input blocks; the class's invariant; full shares; nothing owed. -/
def tiles (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => cellTile (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

/-- The proof data's arrays are the entry arrays (by projection: the fold over the host prefix is never opened). -/
theorem entry_arrays (c : Dev nD) (w : Fin cfg0.W) : (tiles m 0 c).A w = atEntry m c (Pipeline.arrRef spec0 w) := by
  dsimp only [tiles]

/-- What the body leaves, window by window. -/
theorem left0 (c : Dev nD) (t : Fin cfg0.N) : (tiles m 0 c).after 0 t = blockAt m c 0 t := by dsimp only [tiles]
theorem left1 (c : Dev nD) (t : Fin cfg0.N) : (tiles m 0 c).after 1 t = blockAt m c 1 t := by dsimp only [tiles]
theorem left2 (c : Dev nD) (t : Fin cfg0.N) : (tiles m 0 c).after 2 t = blockAt m c 2 t := by dsimp only [tiles]
theorem left3 (c : Dev nD) (t : Fin cfg0.N) : (tiles m 0 c).after 3 t = blockAt m c 3 t := by dsimp only [tiles]
theorem left4 (c : Dev nD) (t : Fin cfg0.N) : (tiles m 0 c).after 4 t = blockAt m c 4 t := by dsimp only [tiles]
theorem left5 (c : Dev nD) (t : Fin cfg0.N) : (tiles m 0 c).after 5 t = blockAt m c 5 t := by dsimp only [tiles]
theorem left6 (c : Dev nD) (t : Fin cfg0.N) : (tiles m 0 c).after 6 t = blockAt m c 6 t := by dsimp only [tiles]
theorem left7 (c : Dev nD) (t : Fin cfg0.N) : (tiles m 0 c).after 7 t = blockAt m c 7 t := by dsimp only [tiles]
theorem left8 (c : Dev nD) (t : Fin cfg0.N) : (tiles m 0 c).after 8 t = cellTile (blockAt m c 0 t) (blockAt m c 1 t) (blockAt m c 2 t) (blockAt m c 3 t) (blockAt m c 4 t) (blockAt m c 5 t) (blockAt m c 6 t) (blockAt m c 7 t) := by dsimp only [tiles]

/-- Each input's current staging buffer holds its block at every point. -/
theorem staged0 (c : Dev nD) (t : Fin cfg0.N) (d) : (tiles m 0 c).before 0 t d = blockAt m c 0 t :=
  staged0_of m (tiles m 0 c) (entry_arrays m c 0) (left0 m c) t d
theorem staged1 (c : Dev nD) (t : Fin cfg0.N) (d) : (tiles m 0 c).before 1 t d = blockAt m c 1 t :=
  staged1_of m (tiles m 0 c) (entry_arrays m c 1) (left1 m c) t d
theorem staged2 (c : Dev nD) (t : Fin cfg0.N) (d) : (tiles m 0 c).before 2 t d = blockAt m c 2 t :=
  staged2_of m (tiles m 0 c) (entry_arrays m c 2) (left2 m c) t d
theorem staged3 (c : Dev nD) (t : Fin cfg0.N) (d) : (tiles m 0 c).before 3 t d = blockAt m c 3 t :=
  staged3_of m (tiles m 0 c) (entry_arrays m c 3) (left3 m c) t d
theorem staged4 (c : Dev nD) (t : Fin cfg0.N) (d) : (tiles m 0 c).before 4 t d = blockAt m c 4 t :=
  staged4_of m (tiles m 0 c) (entry_arrays m c 4) (left4 m c) t d
theorem staged5 (c : Dev nD) (t : Fin cfg0.N) (d) : (tiles m 0 c).before 5 t d = blockAt m c 5 t :=
  staged5_of m (tiles m 0 c) (entry_arrays m c 5) (left5 m c) t d
theorem staged6 (c : Dev nD) (t : Fin cfg0.N) (d) : (tiles m 0 c).before 6 t d = blockAt m c 6 t :=
  staged6_of m (tiles m 0 c) (entry_arrays m c 6) (left6 m c) t d
theorem staged7 (c : Dev nD) (t : Fin cfg0.N) (d) : (tiles m 0 c).before 7 t d = blockAt m c 7 t :=
  staged7_of m (tiles m 0 c) (entry_arrays m c 7) (left7 m c) t d

/-! ## The body obligation at a generic point -/

/-- What the body is called with at point `t`, the windows one by one, -/
def atCall (c : Dev nD) (t : Fin cfg0.N) : sProp 𝕄 :=
  iprop((tiles m 0 c).Φ t.castSucc ∗ (tiles m 0 c).owesAt () t.castSucc
    ∗ (∃ d, owns (c : Thread nD τ) (st0_0 t) fullShare ((tiles m 0 c).before 0 t d))
    ∗ (∃ d, owns (c : Thread nD τ) (st0_1 t) fullShare ((tiles m 0 c).before 1 t d))
    ∗ (∃ d, owns (c : Thread nD τ) (st0_2 t) fullShare ((tiles m 0 c).before 2 t d))
    ∗ (∃ d, owns (c : Thread nD τ) (st0_3 t) fullShare ((tiles m 0 c).before 3 t d))
    ∗ (∃ d, owns (c : Thread nD τ) (st0_4 t) fullShare ((tiles m 0 c).before 4 t d))
    ∗ (∃ d, owns (c : Thread nD τ) (st0_5 t) fullShare ((tiles m 0 c).before 5 t d))
    ∗ (∃ d, owns (c : Thread nD τ) (st0_6 t) fullShare ((tiles m 0 c).before 6 t d))
    ∗ (∃ d, owns (c : Thread nD τ) (st0_7 t) fullShare ((tiles m 0 c).before 7 t d))
    ∗ (∃ d, owns (c : Thread nD τ) (st0_8 t) fullShare ((tiles m 0 c).before 8 t d)))

/-- and what it returns. -/
def atReturn (c : Dev nD) (t : Fin cfg0.N) : sProp 𝕄 :=
  iprop((tiles m 0 c).Φ t.succ ∗ (tiles m 0 c).owesAt () t.succ
    ∗ owns (c : Thread nD τ) (st0_0 t) fullShare ((tiles m 0 c).after 0 t)
    ∗ owns (c : Thread nD τ) (st0_1 t) fullShare ((tiles m 0 c).after 1 t)
    ∗ owns (c : Thread nD τ) (st0_2 t) fullShare ((tiles m 0 c).after 2 t)
    ∗ owns (c : Thread nD τ) (st0_3 t) fullShare ((tiles m 0 c).after 3 t)
    ∗ owns (c : Thread nD τ) (st0_4 t) fullShare ((tiles m 0 c).after 4 t)
    ∗ owns (c : Thread nD τ) (st0_5 t) fullShare ((tiles m 0 c).after 5 t)
    ∗ owns (c : Thread nD τ) (st0_6 t) fullShare ((tiles m 0 c).after 6 t)
    ∗ owns (c : Thread nD τ) (st0_7 t) fullShare ((tiles m 0 c).after 7 t)
    ∗ owns (c : Thread nD τ) (st0_8 t) fullShare ((tiles m 0 c).after 8 t))

set_option maxHeartbeats 2000000 in
/-- The body at any point: the inputs' buffers hold the point's blocks, so the body's triple applies; the invariant
    and the core's obligations pass through unread. -/
theorem point_runs (c : Dev nD) (t : Fin cfg0.N) :
    atCall m c t ⊢ wp frame (wpE (defs₀ (F := F)) Variants.none c none) Set.univ (bodyAt0 t) (fun _ => atReturn m c t) := by
  unfold atCall atReturn bodyAt0
  simp only [staged0, staged1, staged2, staged3, staged4, staged5, staged6, staged7]
  rw [show (tiles m 0 c).Φ t.succ = (tiles m 0 c).Φ t.castSucc from rfl,
    show (tiles m 0 c).owesAt () t.succ = (tiles m 0 c).owesAt () t.castSucc from rfl,
    left0, left1, left2, left3, left4, left5, left6, left7, left8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem every_point (c : Dev nD) : BodyObligation (tiles (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of @main terminates, and every final state has
    each window's array at what the proof data's write-backs make of it and every other unscoped buffer as the region
    found it. -/
theorem region_runs : θ_run defs (onTc (τ := τ) (main (F := F))) (s₀ m ρ) (Pipeline.FramePost cfgs (tiles m) 0 (atEntry m)) :=
  Pipeline.θ_run_frame cfgs (tiles m) (0 : Fin 1) launch0 defs₀ Variants.none m ρ main
    (hbody := fun c => (every_point m c).loose) (hshare := fun c => (tiles m 0 c).share_full fun _ => rfl)
    (howed := fun _ _ => rfl) (V := atEntry m) (hmain := main_to_region m Variants.none) (hA := entry_arrays m) (hΦ := fun _ _ => rfl)

/-- The frame: @main runs to the end, nothing faults, and the fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  arguments_kept m ρ (tiles m) (entry_arrays m) (region_runs m ρ)

end Cert.KernelIdeal.Cell

end
-- ==== Proof.IEntryArrays.lean ====
/-
  What the idealized kernel's windows hold, entry by entry.

  The three row-tiled inputs are argument arrays, untouched by the host prefix: the block of grid point `t` is
  rows `512·t + q`. The five resident windows hold arrays the host prefix wrote, and their one block is the whole
  array. The stacked x-gate matrix is the four x-gate weight matrices stacked along their rows (2048 rows),
  transposed and narrowed: its entry `(k, n)` is entry `(c, k)` of piece `g`, where `n = 512·g + c`. The two stacked
  gate matrices likewise from three pieces, and the two candidate-state matrices are plain transposes. Narrowing to
  bf16 is the identity on the extended reals.
-/
import proofs.«138240_j61778809585745_2_alg».proof.Proof.ICellRun
import Idealize.ShloMosaic.Lib.Pipeline.Value
import Idealize.ShloMosaic.Lib.ValueIdx
import Idealize.ShloMosaic.Lib.StableHlo.Run

set_option maxRecDepth 16384

noncomputable section

namespace Cert.KernelIdeal.Entry

open Idealize.ShloMosaic Idealize.ShloMosaic.TcCoe Idealize.ShloMosaic.ValueIdx Idealize.ShloMosaic.StableHlo
open Idealize.SL.Sem
open Cert.KernelIdeal Cert.KernelIdeal.Gen Cert.KernelIdeal.Cell

variable (m : (ℓ : Loc nD τ sig) → Buf (Elt Ideal) ℓ)

/-! ## Stacks read at an entry -/

/-- Four `512 × 1024` matrices stacked along their rows, transposed and narrowed: entry `(k, n)` is entry `(c, k)` of
    piece `g`, for `n = 512·g + c`. -/
theorem stack4_apply (x0 x1 x2 x3 : S512x1024.Idx → Elt Ideal .f32)
    (h : Shape.Concatenates [S512x1024, S512x1024, S512x1024, S512x1024] S2048x1024 0)
    (h' : S2048x1024.Transposes [1, 0] S1024x2048) (hlt : FTy.bits .bf16 < FTy.bits .f32)
    (g : Fin 4) (k : Fin 1024) (c : Fin 512) (n : Fin 2048) (hn : n.val = 512 * g.val + c.val) :
    (truncf .bf16 (transpose S1024x2048 [1, 0]
        (concatenate S2048x1024 0 [⟨S512x1024, x0⟩, ⟨S512x1024, x1⟩, ⟨S512x1024, x2⟩, ⟨S512x1024, x3⟩] h) h') hlt :
          FVec Ideal S1024x2048 .bf16) (ix2 k n)
      = (![x0, x1, x2, x3] g) (ix2 c k) := by
  rw [truncf_apply]
  rw [transpose_apply [1, 0] _ h' (ix2 k n) (ix2 n k) (fun b => match b with | ⟨0, _⟩ => rfl | ⟨1, _⟩ => rfl)]
  have side : ∀ b : Fin S512x1024.rank, b.cast (rfl : S512x1024.rank = S2048x1024.rank) ≠ (0 : Fin S2048x1024.rank) →
      ((ix2 c k : S512x1024.Idx) b).val = ((ix2 n k : S2048x1024.Idx) (b.cast rfl)).val := fun b hb =>
    match b, hb with
    | ⟨0, _⟩, hb => absurd rfl hb
    | ⟨1, _⟩, _ => rfl
  match g, hn with
  | ⟨0, _⟩, hn => exact concatenate_apply_piece 0 [⟨S512x1024, x0⟩, ⟨S512x1024, x1⟩, ⟨S512x1024, x2⟩, ⟨S512x1024, x3⟩] h (ix2 n k) 0 (by show 0 < 4; omega) S512x1024 x0 rfl rfl 0 rfl (ix2 c k) side (by have hn' : n.val = 0 + c.val := hn; show 0 + c.val = n.val; omega)
  | ⟨1, _⟩, hn => exact concatenate_apply_piece 0 [⟨S512x1024, x0⟩, ⟨S512x1024, x1⟩, ⟨S512x1024, x2⟩, ⟨S512x1024, x3⟩] h (ix2 n k) 1 (by show 1 < 4; omega) S512x1024 x1 rfl rfl 512 rfl (ix2 c k) side (by have hn' : n.val = 512 + c.val := hn; show 512 + c.val = n.val; omega)
  | ⟨2, _⟩, hn => exact concatenate_apply_piece 0 [⟨S512x1024, x0⟩, ⟨S512x1024, x1⟩, ⟨S512x1024, x2⟩, ⟨S512x1024, x3⟩] h (ix2 n k) 2 (by show 2 < 4; omega) S512x1024 x2 rfl rfl 1024 rfl (ix2 c k) side (by have hn' : n.val = 1024 + c.val := hn; show 1024 + c.val = n.val; omega)
  | ⟨3, _⟩, hn => exact concatenate_apply_piece 0 [⟨S512x1024, x0⟩, ⟨S512x1024, x1⟩, ⟨S512x1024, x2⟩, ⟨S512x1024, x3⟩] h (ix2 n k) 3 (by show 3 < 4; omega) S512x1024 x3 rfl rfl 1536 rfl (ix2 c k) side (by have hn' : n.val = 1536 + c.val := hn; show 1536 + c.val = n.val; omega)

/-- Three `512 × 512` matrices stacked along their rows, transposed and narrowed: entry `(k, n)` is entry `(c, k)` of
    piece `g`, for `n = 512·g + c`. -/
theorem stack3_apply (x0 x1 x2 : S512x512.Idx → Elt Ideal .f32)
    (h : Shape.Concatenates [S512x512, S512x512, S512x512] S1536x512 0)
    (h' : S1536x512.Transposes [1, 0] S512x1536) (hlt : FTy.bits .bf16 < FTy.bits .f32)
    (g : Fin 3) (k : Fin 512) (c : Fin 512) (n : Fin 1536) (hn : n.val = 512 * g.val + c.val) :
    (truncf .bf16 (transpose S512x1536 [1, 0]
        (concatenate S1536x512 0 [⟨S512x512, x0⟩, ⟨S512x512, x1⟩, ⟨S512x512, x2⟩] h) h') hlt :
          FVec Ideal S512x1536 .bf16) (ix2 k n)
      = (![x0, x1, x2] g) (ix2 c k) := by
  rw [truncf_apply]
  rw [transpose_apply [1, 0] _ h' (ix2 k n) (ix2 n k) (fun b => match b with | ⟨0, _⟩ => rfl | ⟨1, _⟩ => rfl)]
  have side : ∀ b : Fin S512x512.rank, b.cast (rfl : S512x512.rank = S1536x512.rank) ≠ (0 : Fin S1536x512.rank) →
      ((ix2 c k : S512x512.Idx) b).val = ((ix2 n k : S1536x512.Idx) (b.cast rfl)).val := fun b hb =>
    match b, hb with
    | ⟨0, _⟩, hb => absurd rfl hb
    | ⟨1, _⟩, _ => rfl
  match g, hn with
  | ⟨0, _⟩, hn => exact concatenate_apply_piece 0 [⟨S512x512, x0⟩, ⟨S512x512, x1⟩, ⟨S512x512, x2⟩] h (ix2 n k) 0 (by show 0 < 3; omega) S512x512 x0 rfl rfl 0 rfl (ix2 c k) side (by have hn' : n.val = 0 + c.val := hn; show 0 + c.val = n.val; omega)
  | ⟨1, _⟩, hn => exact concatenate_apply_piece 0 [⟨S512x512, x0⟩, ⟨S512x512, x1⟩, ⟨S512x512, x2⟩] h (ix2 n k) 1 (by show 1 < 3; omega) S512x512 x1 rfl rfl 512 rfl (ix2 c k) side (by have hn' : n.val = 512 + c.val := hn; show 512 + c.val = n.val; omega)
  | ⟨2, _⟩, hn => exact concatenate_apply_piece 0 [⟨S512x512, x0⟩, ⟨S512x512, x1⟩, ⟨S512x512, x2⟩] h (ix2 n k) 2 (by show 2 < 3; omega) S512x512 x2 rfl rfl 1024 rfl (ix2 c k) side (by have hn' : n.val = 1024 + c.val := hn; show 1024 + c.val = n.val; omega)

/-- A `512 × 512` matrix transposed and narrowed: entry `(k, c)` is the matrix's entry `(c, k)`. -/
theorem transposed_apply (x : S512x512.Idx → Elt Ideal .f32) (h' : S512x512.Transposes [1, 0] S512x512)
    (hlt : FTy.bits .bf16 < FTy.bits .f32) (k c : Fin 512) :
    (truncf .bf16 (transpose S512x512 [1, 0] x h') hlt : FVec Ideal S512x512 .bf16) (ix2 k c) = x (ix2 c k) := by
  show transpose S512x512 [1, 0] x h' (ix2 k c) = _
  exact transpose_apply [1, 0] x h' (ix2 k c) (ix2 c k) (fun b => match b with | ⟨0, _⟩ => rfl | ⟨1, _⟩ => rfl)

/-! ## The arrays the host prefix wrote -/

/-- The stacked x-gate matrix, as the region finds it. -/
theorem stackedX_entry (c : Dev nD) :
    @Eq (FVec Ideal S1024x2048 .bf16) (atEntry m c main_v2)
      (truncf (F := Ideal) .bf16 (transpose S1024x2048 [1, 0] (concatenate S2048x1024 0
          [⟨S512x1024, (m ((c : Thread nD τ).loc main_arg3) : S512x1024.Idx → Elt Ideal .f32)⟩, ⟨S512x1024, (m ((c : Thread nD τ).loc main_arg4) : S512x1024.Idx → Elt Ideal .f32)⟩,
           ⟨S512x1024, (m ((c : Thread nD τ).loc main_arg5) : S512x1024.Idx → Elt Ideal .f32)⟩, ⟨S512x1024, (m ((c : Thread nD τ).loc main_arg6) : S512x1024.Idx → Elt Ideal .f32)⟩]
          concatenates_S512x1024_S512x1024_S512x1024_S512x1024_S2048x1024_d0) transposes_S2048x1024_S1024x2048_1_0) bitsLt_bf16_f32) := by
  dsimp only [atEntry, hostOps0]
  after_results <;> rfl

/-- The stacked speaker-side gate matrix. -/
theorem stackedH_entry (c : Dev nD) :
    @Eq (FVec Ideal S512x1536 .bf16) (atEntry m c main_v5)
      (truncf (F := Ideal) .bf16 (transpose S512x1536 [1, 0] (concatenate S1536x512 0
          [⟨S512x512, (m ((c : Thread nD τ).loc main_arg7) : S512x512.Idx → Elt Ideal .f32)⟩, ⟨S512x512, (m ((c : Thread nD τ).loc main_arg8) : S512x512.Idx → Elt Ideal .f32)⟩, ⟨S512x512, (m ((c : Thread nD τ).loc main_arg9) : S512x512.Idx → Elt Ideal .f32)⟩]
          concatenates_S512x512_S512x512_S512x512_S1536x512_d0) transposes_S1536x512_S512x1536_1_0) bitsLt_bf16_f32) := by
  dsimp only [atEntry, hostOps0]
  after_results <;> rfl

/-- The stacked addressee-side gate matrix. -/
theorem stackedV_entry (c : Dev nD) :
    @Eq (FVec Ideal S512x1536 .bf16) (atEntry m c main_v8)
      (truncf (F := Ideal) .bf16 (transpose S512x1536 [1, 0] (concatenate S1536x512 0
          [⟨S512x512, (m ((c : Thread nD τ).loc main_arg11) : S512x512.Idx → Elt Ideal .f32)⟩, ⟨S512x512, (m ((c : Thread nD τ).loc main_arg12) : S512x512.Idx → Elt Ideal .f32)⟩, ⟨S512x512, (m ((c : Thread nD τ).loc main_arg13) : S512x512.Idx → Elt Ideal .f32)⟩]
          concatenates_S512x512_S512x512_S512x512_S1536x512_d0) transposes_S1536x512_S512x1536_1_0) bitsLt_bf16_f32) := by
  dsimp only [atEntry, hostOps0]
  after_results <;> rfl

/-- The speaker-side candidate-state matrix, transposed. -/
theorem candH_entry (c : Dev nD) :
    @Eq (FVec Ideal S512x512 .bf16) (atEntry m c main_v10)
      (truncf (F := Ideal) .bf16 (transpose S512x512 [1, 0] (m ((c : Thread nD τ).loc main_arg10) : S512x512.Idx → Elt Ideal .f32) transposes_S512x512_S512x512_1_0) bitsLt_bf16_f32) := by
  dsimp only [atEntry, hostOps0]
  after_results <;> rfl

/-- The addressee-side candidate-state matrix, transposed. -/
theorem candV_entry (c : Dev nD) :
    @Eq (FVec Ideal S512x512 .bf16) (atEntry m c main_v12)
      (truncf (F := Ideal) .bf16 (transpose S512x512 [1, 0] (m ((c : Thread nD τ).loc main_arg14) : S512x512.Idx → Elt Ideal .f32) transposes_S512x512_S512x512_1_0) bitsLt_bf16_f32) := by
  dsimp only [atEntry, hostOps0]
  after_results <;> rfl

/-! ## The blocks -/

/-- The printed index maps, decided once over the 32 grid points: the three row-tiled inputs and the output are at
    block `(t, 0)`, the five resident windows at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Row `q` of tile `t` is row `512·t + q` of the batch. -/
def row (t : Fin cfg0.N) (q : Fin 512) : Fin 16384 :=
  ⟨512 * t.val + q.val, by have h := t.isLt; have hN : cfg0.N = 32 := N_0; omega⟩

/-- The encoder block of point `t`: rows `512·t + q`. -/
theorem encBlock_apply (c : Dev nD) (t : Fin cfg0.N) (q : Fin 512) (k : Fin 1024) :
    blockAt m c 0 t (ix2 q k) = (m ((c : Thread nD τ).loc main_arg0) : S16384x1024.Idx → Elt Ideal .f32) (ix2 (row t q) k) := by
  obtain ⟨e0, e1, -⟩ := index_facts t
  show atEntry m c main_arg0 (((cfg0.win 0).blk t).view.emb (ix2 q k)) = _
  rw [entry_arg0]
  refine congrArg _ (funext fun a => Fin.ext ?_)
  match a with
  | ⟨0, _⟩ => show win0_0.index t (0 : Fin 2) * 512 + 1 * q.val = 512 * t.val + q.val; omega
  | ⟨1, _⟩ => show win0_0.index t (1 : Fin 2) * 1024 + 1 * k.val = k.val; omega

/-- The speaker block of point `t`. -/
theorem spkBlock_apply (c : Dev nD) (t : Fin cfg0.N) (q k : Fin 512) :
    blockAt m c 1 t (ix2 q k) = (m ((c : Thread nD τ).loc main_arg1) : S16384x512.Idx → Elt Ideal .f32) (ix2 (row t q) k) := by
  obtain ⟨-, -, e0, e1, -⟩ := index_facts t
  show atEntry m c main_arg1 (((cfg0.win 1).blk t).view.emb (ix2 q k)) = _
  rw [entry_arg1]
  refine congrArg _ (funext fun a => Fin.ext ?_)
  match a with
  | ⟨0, _⟩ => show win0_1.index t (0 : Fin 2) * 512 + 1 * q.val = 512 * t.val + q.val; omega
  | ⟨1, _⟩ => show win0_1.index t (1 : Fin 2) * 512 + 1 * k.val = k.val; omega

/-- The addressee block of point `t`. -/
theorem adrBlock_apply (c : Dev nD) (t : Fin cfg0.N) (q k : Fin 512) :
    blockAt m c 2 t (ix2 q k) = (m ((c : Thread nD τ).loc main_arg2) : S16384x512.Idx → Elt Ideal .f32) (ix2 (row t q) k) := by
  obtain ⟨-, -, -, -, e0, e1, -⟩ := index_facts t
  show atEntry m c main_arg2 (((cfg0.win 2).blk t).view.emb (ix2 q k)) = _
  rw [entry_arg2]
  refine congrArg _ (funext fun a => Fin.ext ?_)
  match a with
  | ⟨0, _⟩ => show win0_2.index t (0 : Fin 2) * 512 + 1 * q.val = 512 * t.val + q.val; omega
  | ⟨1, _⟩ => show win0_2.index t (1 : Fin 2) * 512 + 1 * k.val = k.val; omega

/-- The stacked x-gate window's one block is the whole matrix: entry `(k, 512·g + j)` is x-gate matrix `g` at `(j, k)`. -/
theorem wxBlock_apply (c : Dev nD) (t : Fin cfg0.N) (g : Fin 4) (k : Fin 1024) (j : Fin 512) (n : Fin 2048)
    (hn : n.val = 512 * g.val + j.val) :
    blockAt m c 3 t (ix2 k n)
      = (![(m ((c : Thread nD τ).loc main_arg3) : S512x1024.Idx → Elt Ideal .f32), (m ((c : Thread nD τ).loc main_arg4) : S512x1024.Idx → Elt Ideal .f32), (m ((c : Thread nD τ).loc main_arg5) : S512x1024.Idx → Elt Ideal .f32), (m ((c : Thread nD τ).loc main_arg6) : S512x1024.Idx → Elt Ideal .f32)] g) (ix2 j k) := by
  obtain ⟨-, -, -, -, -, -, e0, e1, -⟩ := index_facts t
  have hb : blockAt m c 3 t (ix2 k n) = atEntry m c main_v2 (ix2 k n) := by
    show atEntry m c main_v2 (((cfg0.win 3).blk t).view.emb (ix2 k n)) = _
    refine congrArg _ (funext fun a => Fin.ext ?_)
    match a with
    | ⟨0, _⟩ => show win0_3.index t (0 : Fin 2) * 1024 + 1 * k.val = k.val; omega
    | ⟨1, _⟩ => show win0_3.index t (1 : Fin 2) * 2048 + 1 * n.val = n.val; omega
  rw [hb, stackedX_entry]
  exact stack4_apply _ _ _ _ _ _ _ g k j n hn

/-- The stacked speaker-side window: entry `(k, 512·g + j)` is speaker-side gate matrix `g` at `(j, k)`. -/
theorem whBlock_apply (c : Dev nD) (t : Fin cfg0.N) (g : Fin 3) (k j : Fin 512) (n : Fin 1536)
    (hn : n.val = 512 * g.val + j.val) :
    blockAt m c 4 t (ix2 k n)
      = (![(m ((c : Thread nD τ).loc main_arg7) : S512x512.Idx → Elt Ideal .f32), (m ((c : Thread nD τ).loc main_arg8) : S512x512.Idx → Elt Ideal .f32), (m ((c : Thread nD τ).loc main_arg9) : S512x512.Idx → Elt Ideal .f32)] g) (ix2 j k) := by
  obtain ⟨-, -, -, -, -, -, -, -, e0, e1, -⟩ := index_facts t
  have hb : blockAt m c 4 t (ix2 k n) = atEntry m c main_v5 (ix2 k n) := by
    show atEntry m c main_v5 (((cfg0.win 4).blk t).view.emb (ix2 k n)) = _
    refine congrArg _ (funext fun a => Fin.ext ?_)
    match a with
    | ⟨0, _⟩ => show win0_4.index t (0 : Fin 2) * 512 + 1 * k.val = k.val; omega
    | ⟨1, _⟩ => show win0_4.index t (1 : Fin 2) * 1536 + 1 * n.val = n.val; omega
  rw [hb, stackedH_entry]
  exact stack3_apply _ _ _ _ _ _ g k j n hn

/-- The stacked addressee-side window: entry `(k, 512·g + j)` is addressee-side gate matrix `g` at `(j, k)`. -/
theorem wvBlock_apply (c : Dev nD) (t : Fin cfg0.N) (g : Fin 3) (k j : Fin 512) (n : Fin 1536)
    (hn : n.val = 512 * g.val + j.val) :
    blockAt m c 5 t (ix2 k n)
      = (![(m ((c : Thread nD τ).loc main_arg11) : S512x512.Idx → Elt Ideal .f32), (m ((c : Thread nD τ).loc main_arg12) : S512x512.Idx → Elt Ideal .f32), (m ((c : Thread nD τ).loc main_arg13) : S512x512.Idx → Elt Ideal .f32)] g) (ix2 j k) := by
  obtain ⟨-, -, -, -, -, -, -, -, -, -, e0, e1, -⟩ := index_facts t
  have hb : blockAt m c 5 t (ix2 k n) = atEntry m c main_v8 (ix2 k n) := by
    show atEntry m c main_v8 (((cfg0.win 5).blk t).view.emb (ix2 k n)) = _
    refine congrArg _ (funext fun a => Fin.ext ?_)
    match a with
    | ⟨0, _⟩ => show win0_5.index t (0 : Fin 2) * 512 + 1 * k.val = k.val; omega
    | ⟨1, _⟩ => show win0_5.index t (1 : Fin 2) * 1536 + 1 * n.val = n.val; omega
  rw [hb, stackedV_entry]
  exact stack3_apply _ _ _ _ _ _ g k j n hn

/-- The speaker-side candidate-state window: entry `(k, j)` is that matrix at `(j, k)`. -/
theorem uhBlock_apply (c : Dev nD) (t : Fin cfg0.N) (k j : Fin 512) :
    blockAt m c 6 t (ix2 k j) = (m ((c : Thread nD τ).loc main_arg10) : S512x512.Idx → Elt Ideal .f32) (ix2 j k) := by
  obtain ⟨-, -, -, -, -, -, -, -, -, -, -, -, e0, e1, -⟩ := index_facts t
  have hb : blockAt m c 6 t (ix2 k j) = atEntry m c main_v10 (ix2 k j) := by
    show atEntry m c main_v10 (((cfg0.win 6).blk t).view.emb (ix2 k j)) = _
    refine congrArg _ (funext fun a => Fin.ext ?_)
    match a with
    | ⟨0, _⟩ => show win0_6.index t (0 : Fin 2) * 512 + 1 * k.val = k.val; omega
    | ⟨1, _⟩ => show win0_6.index t (1 : Fin 2) * 512 + 1 * j.val = j.val; omega
  rw [hb, candH_entry]
  exact transposed_apply _ _ _ k j

/-- The addressee-side candidate-state window: entry `(k, j)` is that matrix at `(j, k)`. -/
theorem uvBlock_apply (c : Dev nD) (t : Fin cfg0.N) (k j : Fin 512) :
    blockAt m c 7 t (ix2 k j) = (m ((c : Thread nD τ).loc main_arg14) : S512x512.Idx → Elt Ideal .f32) (ix2 j k) := by
  obtain ⟨-, -, -, -, -, -, -, -, -, -, -, -, -, -, e0, e1, -⟩ := index_facts t
  have hb : blockAt m c 7 t (ix2 k j) = atEntry m c main_v12 (ix2 k j) := by
    show atEntry m c main_v12 (((cfg0.win 7).blk t).view.emb (ix2 k j)) = _
    refine congrArg _ (funext fun a => Fin.ext ?_)
    match a with
    | ⟨0, _⟩ => show win0_7.index t (0 : Fin 2) * 512 + 1 * k.val = k.val; omega
    | ⟨1, _⟩ => show win0_7.index t (1 : Fin 2) * 512 + 1 * j.val = j.val; omega
  rw [hb, candV_entry]
  exact transposed_apply _ _ _ k j

end Cert.KernelIdeal.Entry

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.CellSpec.lean ====
/-
  The gated cell as one function of its fifteen matrices, entry by entry, on the extended reals.

  For a batch of rows with encoder states `enc` (width 1024), speaker vectors `spk` and addressee vectors `adr`
  (width 512), and weight matrices stored one output unit per row, a linear map is `lin x W p c = Σ_k x[p,k] · W[c,k]`
  (that is `x Wᵀ`). A gate is the logistic function of the sum of three linear maps, `(enc·Wx + spk·Wh) + adr·Wv`.
  With the reset gates `r`, `p`, the update gate `z` and the candidate
  `h = tanh ((enc·Wxh + (r ∘ spk)·Whh) + (p ∘ adr)·Vhh)`, the new speaker state is `(1 - z) · spk + z · h`.

  Entry `(p, c)` reads only row `p` of `enc`, `spk` and `adr`: a batch cut into row tiles gives, tile by tile, the
  rows of the whole batch's result (`cell_of_rows`). Sums are grouped exactly as written here; nothing is
  rearranged, so no entry needs to be finite.
-/
import Idealize.ShloMosaic.PureOps.Ideal
import Idealize.ShloMosaic.Lib.ValueIdx

noncomputable section

open scoped BigOperators

namespace Cert.CellSpec

open Idealize.ShloMosaic Idealize.ShloMosaic.ValueIdx

/-- An `a × b` matrix of extended reals. -/
abbrev Mat (a b : Nat) : Type := (⟨2, ![a, b]⟩ : Shape).Idx → EReal

/-- The float pattern of `1.0` denotes the number one. -/
theorem one_eq : Ideal.ofBits .f32 0x3F800000#32 = 1 := by
  simp [Ideal.ofBits, Ideal.ieee, -EReal.coe_mul]; norm_num

/-- `x Wᵀ` at `(p, c)`: the weights are stored one output unit per row. -/
def lin {R K C : Nat} (x : Mat R K) (W : Mat C K) (p : Fin R) (c : Fin C) : EReal :=
  ∑ k : Fin K, x (ix2 p k) * W (ix2 c k)

/-- One gate at `(p, c)`: the logistic function of the three linear maps summed, left to right. -/
def gate {R : Nat} (enc : Mat R 1024) (spk adr : Mat R 512) (Wx : Mat 512 1024) (Wh Wv : Mat 512 512)
    (p : Fin R) (c : Fin 512) : EReal :=
  Ideal.logistic ((lin enc Wx p c + lin spk Wh p c) + lin adr Wv p c)

/-- The new speaker state at `(p, c)`. -/
def cell {R : Nat} (enc : Mat R 1024) (spk adr : Mat R 512) (Wxr Wxp Wxz Wxh : Mat 512 1024)
    (Whr Whp Whz Whh Vhr Vhp Vhz Vhh : Mat 512 512) (p : Fin R) (c : Fin 512) : EReal :=
  (1 - gate enc spk adr Wxz Whz Vhz p c) * spk (ix2 p c)
    + gate enc spk adr Wxz Whz Vhz p c
      * Ideal.tanh ((lin enc Wxh p c
          + ∑ k : Fin 512, (gate enc spk adr Wxr Whr Vhr p k * spk (ix2 p k)) * Whh (ix2 c k))
          + ∑ k : Fin 512, (gate enc spk adr Wxp Whp Vhp p k * adr (ix2 p k)) * Vhh (ix2 c k))

/-- Row locality: if the rows of a tile are rows `ρ q` of the batch, the tile's cell at `(q, c)` is the batch's at `(ρ q, c)`. -/
theorem cell_of_rows {R R' : Nat} (ρ : Fin R' → Fin R) (enc : Mat R 1024) (spk adr : Mat R 512)
    (enc' : Mat R' 1024) (spk' adr' : Mat R' 512)
    (henc : ∀ q k, enc' (ix2 q k) = enc (ix2 (ρ q) k)) (hspk : ∀ q k, spk' (ix2 q k) = spk (ix2 (ρ q) k))
    (hadr : ∀ q k, adr' (ix2 q k) = adr (ix2 (ρ q) k))
    (Wxr Wxp Wxz Wxh : Mat 512 1024) (Whr Whp Whz Whh Vhr Vhp Vhz Vhh : Mat 512 512) (q : Fin R') (c : Fin 512) :
    cell enc' spk' adr' Wxr Wxp Wxz Wxh Whr Whp Whz Whh Vhr Vhp Vhz Vhh q c
      = cell enc spk adr Wxr Wxp Wxz Wxh Whr Whp Whz Whh Vhr Vhp Vhz Vhh (ρ q) c := by
  simp only [cell, gate, lin, henc, hspk, hadr]

end Cert.CellSpec

end
-- ==== Proof.ITileFormula.lean ====
/-
  The idealized kernel's output tile, read at an entry `(q, c)` of the tile.

  The body forms three wide products on the tile's rows: the encoder rows against the stacked x-gate matrix
  (2048 columns: four bands of 512, for the two reset gates, the update gate and the candidate), the speaker rows
  and the addressee rows against their stacked gate matrices (1536 columns: three bands). Entry `(q, n)` of a
  product is `Σ_k rows[q,k] · stacked[k,n]` (narrowing to bf16 and the shape casts are the identity on the
  extended reals, and the accumulator starts at zero). A gate's pre-activation at `(q, c)` adds the three
  products' entries in that gate's band, at column `offset + c`; the gate is its logistic function.
  The two further products take the rows `r ∘ spk` and `p ∘ adr`, whose entry `(q, k)` needs the gate at
  `(q, k)`: band column `offset + k`. The stored tile is `(1 - z) · spk + z · tanh ((x-candidate + first) + second)`.
-/
import proofs.«138240_j61778809585745_2_alg».proof.Proof.ICellBody
import proofs.«138240_j61778809585745_2_alg».proof.Proof.LibPlainDot
import proofs.«138240_j61778809585745_2_alg».proof.Proof.CellSpec
import Idealize.ShloMosaic.Lib.Pipeline.Value
import Idealize.ShloMosaic.Lib.ValueLayout

set_option maxRecDepth 16384

noncomputable section

open scoped BigOperators

namespace Cert.KernelIdeal.Tile

open Idealize.ShloMosaic Idealize.ShloMosaic.ValueIdx
open Cert.KernelIdeal Cert.KernelIdeal.Gen Cert.KernelIdeal.Cell Cert.CellSpec

variable (enc : Vec Ideal S512x1024 .f32) (spk adr : Vec Ideal S512x512 .f32) (wx : Vec Ideal S1024x2048 .bf16)
  (wh wv : Vec Ideal S512x1536 .bf16) (uh uv : Vec Ideal S512x512 .bf16)

/-! ## The three kinds of product are plain matrix products -/

theorem plain_x : PlainDot.IsPlain dot_S512x1024_S1024x2048_S512x2048_1_0_0_1_n_n := ⟨rfl, rfl, rfl, rfl, rfl, rfl⟩
theorem plain_h : PlainDot.IsPlain dot_S512x512_S512x1536_S512x1536_1_0_0_1_n_n := ⟨rfl, rfl, rfl, rfl, rfl, rfl⟩
theorem plain_u : PlainDot.IsPlain dot_S512x512_S512x512_S512x512_1_0_0_1_n_n := ⟨rfl, rfl, rfl, rfl, rfl, rfl⟩

/-- The encoder rows against the stacked x-gate matrix, at `(q, n)`. -/
theorem encStack_apply (q : Fin 512) (n : Fin 2048) :
    k0_pay2 (F := Ideal) enc wx (ix2 q n) = ∑ k : Fin 1024, enc (ix2 q k) * wx (ix2 k n) := by
  unfold k0_pay2
  refine (PlainDot.matmul_zero_apply plain_x none _ _ q n).trans (Finset.sum_congr rfl fun k _ => ?_)
  rw [shapeCast_self]; rfl

/-- The speaker rows against their stacked gate matrix, at `(q, n)`. -/
theorem spkStack_apply (q : Fin 512) (n : Fin 1536) :
    k0_pay3 (F := Ideal) spk wh (ix2 q n) = ∑ k : Fin 512, spk (ix2 q k) * wh (ix2 k n) := by
  unfold k0_pay3
  refine (PlainDot.matmul_zero_apply plain_h none _ _ q n).trans (Finset.sum_congr rfl fun k _ => ?_)
  rw [shapeCast_self]; rfl

/-- The addressee rows against their stacked gate matrix, at `(q, n)`. -/
theorem adrStack_apply (q : Fin 512) (n : Fin 1536) :
    k0_pay4 (F := Ideal) adr wv (ix2 q n) = ∑ k : Fin 512, adr (ix2 q k) * wv (ix2 k n) := by
  unfold k0_pay4
  refine (PlainDot.matmul_zero_apply plain_h none _ _ q n).trans (Finset.sum_congr rfl fun k _ => ?_)
  rw [shapeCast_self]; rfl

/-! ## A gate's column band -/

/-- A gate's pre-activation at row `q`: the three products' entries at the gate's columns `n` (of 2048) and `n'` (of 1536). -/
def band (q : Fin 512) (n : Fin 2048) (n' : Fin 1536) : EReal :=
  ((∑ k : Fin 1024, enc (ix2 q k) * wx (ix2 k n)) + ∑ k : Fin 512, spk (ix2 q k) * wh (ix2 k n'))
    + ∑ k : Fin 512, adr (ix2 q k) * wv (ix2 k n')

/-- The band at offset `o` cut out of the three products and summed is the gate's pre-activation at columns `o + c`. -/
theorem bandSum_apply (o : Nat) (hx : S512x2048.Slices ![0, o] S512x512) (hh : S512x1536.Slices ![0, o] S512x512)
    (q c : Fin 512) (n : Fin 2048) (n' : Fin 1536) (hn : n.val = o + c.val) (hn' : n'.val = o + c.val) :
    (extractStridedSlice S512x512 ![0, o] (k0_pay2 (F := Ideal) enc wx) hx (ix2 q c)
        + extractStridedSlice S512x512 ![0, o] (k0_pay3 (F := Ideal) spk wh) hh (ix2 q c))
      + extractStridedSlice S512x512 ![0, o] (k0_pay4 (F := Ideal) adr wv) hh (ix2 q c)
      = band enc spk adr wx wh wv q n n' := by
  rw [slice2_axis1_apply o _ hx q c n hn, slice2_axis1_apply o _ hh q c n' hn', slice2_axis1_apply o _ hh q c n' hn',
    encStack_apply, spkStack_apply, adrStack_apply]
  rfl

/-! ## The payloads, entry by entry -/

/-- The candidate's x-part: the fourth band of the encoder product. -/
theorem candidateX_apply (nc : Fin 512 → Fin 2048) (hc : ∀ c, (nc c).val = 1536 + c.val) (q c : Fin 512) :
    k0_pay5 (F := Ideal) enc wx (ix2 q c) = ∑ k : Fin 1024, enc (ix2 q k) * wx (ix2 k (nc c)) := by
  unfold k0_pay5
  rw [slice2_axis1_apply 1536 _ _ q c (nc c) (hc c), encStack_apply]

/-- The update gate `z`: the third band. -/
theorem update_apply (nz : Fin 512 → Fin 2048) (nz' : Fin 512 → Fin 1536) (hz : ∀ c, (nz c).val = 1024 + c.val)
    (hz' : ∀ c, (nz' c).val = 1024 + c.val) (q c : Fin 512) :
    k0_pay6 (F := Ideal) spk adr enc wx wh wv (ix2 q c) = Ideal.logistic (band enc spk adr wx wh wv q (nz c) (nz' c)) := by
  unfold k0_pay6
  show Ideal.logistic ((extractStridedSlice S512x512 ![0, 1024] (k0_pay2 (F := Ideal) enc wx) _ (ix2 q c)
      + extractStridedSlice S512x512 ![0, 1024] (k0_pay3 (F := Ideal) spk wh) _ (ix2 q c))
      + extractStridedSlice S512x512 ![0, 1024] (k0_pay4 (F := Ideal) adr wv) _ (ix2 q c)) = _
  rw [bandSum_apply enc spk adr wx wh wv 1024 _ _ q c (nz c) (nz' c) (hz c) (hz' c)]

/-- The second reset gate times the addressee rows, `p ∘ adr`: the second band. -/
theorem resetAdr_apply (np : Fin 512 → Fin 2048) (np' : Fin 512 → Fin 1536) (hp : ∀ c, (np c).val = 512 + c.val)
    (hp' : ∀ c, (np' c).val = 512 + c.val) (q c : Fin 512) :
    k0_pay7 (F := Ideal) spk adr enc wx wh wv (ix2 q c)
      = Ideal.logistic (band enc spk adr wx wh wv q (np c) (np' c)) * adr (ix2 q c) := by
  unfold k0_pay7
  show Ideal.logistic ((extractStridedSlice S512x512 ![0, 512] (k0_pay2 (F := Ideal) enc wx) _ (ix2 q c)
      + extractStridedSlice S512x512 ![0, 512] (k0_pay3 (F := Ideal) spk wh) _ (ix2 q c))
      + extractStridedSlice S512x512 ![0, 512] (k0_pay4 (F := Ideal) adr wv) _ (ix2 q c)) * adr (ix2 q c) = _
  rw [bandSum_apply enc spk adr wx wh wv 512 _ _ q c (np c) (np' c) (hp c) (hp' c)]

/-- The first reset gate times the speaker rows, against the first candidate-state matrix: `(r ∘ spk) · uh`; the first band. -/
theorem resetSpkProduct_apply (nr : Fin 512 → Fin 2048) (nr' : Fin 512 → Fin 1536) (hr : ∀ c, (nr c).val = 0 + c.val)
    (hr' : ∀ c, (nr' c).val = 0 + c.val) (q c : Fin 512) :
    k0_pay8 (F := Ideal) spk adr enc wx wh wv uh (ix2 q c)
      = ∑ k : Fin 512, (Ideal.logistic (band enc spk adr wx wh wv q (nr k) (nr' k)) * spk (ix2 q k)) * uh (ix2 k c) := by
  unfold k0_pay8
  refine (PlainDot.matmul_zero_apply plain_u none _ _ q c).trans (Finset.sum_congr rfl fun k _ => ?_)
  rw [shapeCast_self]
  show (Ideal.logistic ((extractStridedSlice S512x512 ![0, 0] (k0_pay2 (F := Ideal) enc wx) _ (ix2 q k)
      + extractStridedSlice S512x512 ![0, 0] (k0_pay3 (F := Ideal) spk wh) _ (ix2 q k))
      + extractStridedSlice S512x512 ![0, 0] (k0_pay4 (F := Ideal) adr wv) _ (ix2 q k)) * spk (ix2 q k)) * uh (ix2 k c) = _
  rw [bandSum_apply enc spk adr wx wh wv 0 _ _ q k (nr k) (nr' k) (hr k) (hr' k)]

/-- The stored value from its six inputs: `(1 - z) · spk + z · tanh ((x-candidate + first product) + (p ∘ adr) · uv)`. -/
theorem interpolate_apply (v0 : Vec Ideal S512x512 .f32) (v18 v33 : FVec Ideal S512x512 .f32) (v37 : FVec Ideal S512x512 .bf16)
    (v40 : FVec Ideal S512x512 .f32) (v42 : Vec Ideal S512x512 .bf16) (q c : Fin 512) :
    k0_pay1 (F := Ideal) v0 v18 v33 v37 v40 v42 (ix2 q c)
      = (1 - v33 (ix2 q c)) * v0 (ix2 q c)
        + v33 (ix2 q c) * Ideal.tanh ((v18 (ix2 q c) + v40 (ix2 q c)) + ∑ k : Fin 512, v37 (ix2 q k) * v42 (ix2 k c)) := by
  unfold k0_pay1
  show (Ideal.ofBits .f32 0x3F800000#32 - v33 (ix2 q c)) * v0 (ix2 q c)
      + v33 (ix2 q c) * Ideal.tanh ((v18 (ix2 q c) + v40 (ix2 q c))
        + matmul dot_S512x512_S512x512_S512x512_1_0_0_1_n_n none v37 (shapeCast S512x512 v42 shapeCasts_S512x512_S512x512)
            (constant S512x512 .f32 0x00000000#32) (ix2 q c)) = _
  rw [PlainDot.matmul_zero_apply plain_u none _ _ q c, shapeCast_self, one_eq]

/-! ## The whole tile -/

theorem tile_origin : (![0, 0] : Fin 2 → Nat) = fun _ => 0 := funext fun a => by fin_cases a <;> rfl

/-- Entry `(q, c)` of the tile the body leaves, from the eight input blocks. -/
theorem cellTile_apply (nr np nz nc : Fin 512 → Fin 2048) (nr' np' nz' : Fin 512 → Fin 1536)
    (hr : ∀ c, (nr c).val = 0 + c.val) (hr' : ∀ c, (nr' c).val = 0 + c.val)
    (hp : ∀ c, (np c).val = 512 + c.val) (hp' : ∀ c, (np' c).val = 512 + c.val)
    (hz : ∀ c, (nz c).val = 1024 + c.val) (hz' : ∀ c, (nz' c).val = 1024 + c.val)
    (hc : ∀ c, (nc c).val = 1536 + c.val) (q c : Fin 512) :
    cellTile enc spk adr wx wh wv uh uv (ix2 q c)
      = (1 - Ideal.logistic (band enc spk adr wx wh wv q (nz c) (nz' c))) * spk (ix2 q c)
        + Ideal.logistic (band enc spk adr wx wh wv q (nz c) (nz' c))
          * Ideal.tanh (((∑ k : Fin 1024, enc (ix2 q k) * wx (ix2 k (nc c)))
              + ∑ k : Fin 512, (Ideal.logistic (band enc spk adr wx wh wv q (nr k) (nr' k)) * spk (ix2 q k)) * uh (ix2 k c))
              + ∑ k : Fin 512, (Ideal.logistic (band enc spk adr wx wh wv q (np k) (np' k)) * adr (ix2 q k)) * uv (ix2 k c)) := by
  unfold cellTile
  dsimp only [all512x512, all512x1024, all1024x2048, all512x1536]
  rw [View.canon_unit_zero tile_origin]
  simp only [View.ld_unit_zero (S := S512x512) tile_origin, View.ld_unit_zero (S := S512x1024) tile_origin,
    View.ld_unit_zero (S := S1024x2048) tile_origin, View.ld_unit_zero (S := S512x1536) tile_origin]
  rw [interpolate_apply, update_apply enc spk adr wx wh wv nz nz' hz hz' q c, candidateX_apply enc wx nc hc q c,
    resetSpkProduct_apply enc spk adr wx wh wv uh nr nr' hr hr' q c]
  simp only [resetAdr_apply enc spk adr wx wh wv np np' hp hp' q]

end Cert.KernelIdeal.Tile

end
-- ==== Proof.ICellValue.lean ====
/-
  The idealized kernel's result: the output array after the run, as one function of the argument arrays.

  At grid point `t` the body's tile entry `(q, j)` is the gated cell of the fifteen argument arrays at batch row
  `512·t + q` and column `j`: the three row-tiled blocks are rows `512·t + q` of their arrays, a gate's column band
  `512·g + j` of a stacked matrix holds gate matrix `g` at `(j, k)`, and the candidate-state windows hold their
  matrices transposed. So what point `t` writes back is block `t` of the one function `result`; the 32 blocks of
  512 rows cover the 16384 rows (row `r` lies in block `r / 512`), and the array ends at `result`.
-/
import proofs.«138240_j61778809585745_2_alg».proof.Proof.IEntryArrays
import proofs.«138240_j61778809585745_2_alg».proof.Proof.ITileFormula

set_option maxRecDepth 16384

noncomputable section

open scoped BigOperators

namespace Cert.KernelIdeal.CellValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Cell Cert.KernelIdeal.Tile Cert.KernelIdeal.Entry Cert.CellSpec

variable (m : (ℓ : Loc nD τ sig) → Buf (Elt Ideal) ℓ) (ρ : Dev nD → PrngReg)

/-! ## Columns of the stacked matrices -/

/-- Column `o + j` of a 2048-column stack. -/
def colX (o : Nat) (ho : o + 512 ≤ 2048) (j : Fin 512) : Fin 2048 := ⟨o + j.val, by have := j.isLt; omega⟩
/-- Column `o + j` of a 1536-column stack. -/
def colH (o : Nat) (ho : o + 512 ≤ 1536) (j : Fin 512) : Fin 1536 := ⟨o + j.val, by have := j.isLt; omega⟩

/-! ## A gate's band is the gate -/

/-- If the band's columns of the three stacks hold gate matrices `Wx`, `Wh`, `Wv` at row `j`, the band's
    pre-activation at tile row `q` is the three linear maps at batch row `512·t + q`, column `j`. -/
theorem band_eq_of (c : Dev nD) (t : Fin cfg0.N) (Wx : Mat 512 1024) (Wh Wv : Mat 512 512) (q j : Fin 512)
    (n : Fin 2048) (n' : Fin 1536)
    (hx : ∀ k, blockAt m c 3 t (ix2 k n) = Wx (ix2 j k)) (hh : ∀ k, blockAt m c 4 t (ix2 k n') = Wh (ix2 j k))
    (hv : ∀ k, blockAt m c 5 t (ix2 k n') = Wv (ix2 j k)) :
    band (blockAt m c 0 t) (blockAt m c 1 t) (blockAt m c 2 t) (blockAt m c 3 t) (blockAt m c 4 t) (blockAt m c 5 t) q n n'
      = (lin (R := 16384) (K := 1024) (C := 512) (m ((c : Thread nD τ).loc main_arg0) : S16384x1024.Idx → Elt Ideal .f32) Wx (row t q) j
          + lin (R := 16384) (K := 512) (C := 512) (m ((c : Thread nD τ).loc main_arg1) : S16384x512.Idx → Elt Ideal .f32) Wh (row t q) j)
        + lin (R := 16384) (K := 512) (C := 512) (m ((c : Thread nD τ).loc main_arg2) : S16384x512.Idx → Elt Ideal .f32) Wv (row t q) j := by
  unfold band lin
  simp only [encBlock_apply, spkBlock_apply, adrBlock_apply, hx, hh, hv]

/-- The first band (offset 0): the first reset gate. -/
theorem resetSpk_gate (c : Dev nD) (t : Fin cfg0.N) (q j : Fin 512) :
    Ideal.logistic (band (blockAt m c 0 t) (blockAt m c 1 t) (blockAt m c 2 t) (blockAt m c 3 t) (blockAt m c 4 t) (blockAt m c 5 t) q (colX 0 (by omega) j) (colH 0 (by omega) j))
      = gate (R := 16384) (m ((c : Thread nD τ).loc main_arg0) : S16384x1024.Idx → Elt Ideal .f32) (m ((c : Thread nD τ).loc main_arg1) : S16384x512.Idx → Elt Ideal .f32) (m ((c : Thread nD τ).loc main_arg2) : S16384x512.Idx → Elt Ideal .f32) (m ((c : Thread nD τ).loc main_arg3) : S512x1024.Idx → Elt Ideal .f32) (m ((c : Thread nD τ).loc main_arg7) : S512x512.Idx → Elt Ideal .f32) (m ((c : Thread nD τ).loc main_arg11) : S512x512.Idx → Elt Ideal .f32) (row t q) j := by
  unfold gate
  rw [band_eq_of m c t (m ((c : Thread nD τ).loc main_arg3) : S512x1024.Idx → Elt Ideal .f32) (m ((c : Thread nD τ).loc main_arg7) : S512x512.Idx → Elt Ideal .f32) (m ((c : Thread nD τ).loc main_arg11) : S512x512.Idx → Elt Ideal .f32) q j _ _
    (fun k => wxBlock_apply m c t 0 k j _ (by show 0 + j.val = 512 * 0 + j.val; omega))
    (fun k => whBlock_apply m c t 0 k j _ (by show 0 + j.val = 512 * 0 + j.val; omega))
    (fun k => wvBlock_apply m c t 0 k j _ (by show 0 + j.val = 512 * 0 + j.val; omega))]

/-- The second band (offset 512): the second reset gate. -/
theorem resetAdr_gate (c : Dev nD) (t : Fin cfg0.N) (q j : Fin 512) :
    Ideal.logistic (band (blockAt m c 0 t) (blockAt m c 1 t) (blockAt m c 2 t) (blockAt m c 3 t) (blockAt m c 4 t) (blockAt m c 5 t) q (colX 512 (by omega) j) (colH 512 (by omega) j))
      = gate (R := 16384) (m ((c : Thread nD τ).loc main_arg0) : S16384x1024.Idx → Elt Ideal .f32) (m ((c : Thread nD τ).loc main_arg1) : S16384x512.Idx → Elt Ideal .f32) (m ((c : Thread nD τ).loc main_arg2) : S16384x512.Idx → Elt Ideal .f32) (m ((c : Thread nD τ).loc main_arg4) : S512x1024.Idx → Elt Ideal .f32) (m ((c : Thread nD τ).loc main_arg8) : S512x512.Idx → Elt Ideal .f32) (m ((c : Thread nD τ).loc main_arg12) : S512x512.Idx → Elt Ideal .f32) (row t q) j := by
  unfold gate
  rw [band_eq_of m c t (m ((c : Thread nD τ).loc main_arg4) : S512x1024.Idx → Elt Ideal .f32) (m ((c : Thread nD τ).loc main_arg8) : S512x512.Idx → Elt Ideal .f32) (m ((c : Thread nD τ).loc main_arg12) : S512x512.Idx → Elt Ideal .f32) q j _ _
    (fun k => wxBlock_apply m c t 1 k j _ (by show 512 + j.val = 512 * 1 + j.val; omega))
    (fun k => whBlock_apply m c t 1 k j _ (by show 512 + j.val = 512 * 1 + j.val; omega))
    (fun k => wvBlock_apply m c t 1 k j _ (by show 512 + j.val = 512 * 1 + j.val; omega))]

/-- The third band (offset 1024): the update gate. -/
theorem update_gate (c : Dev nD) (t : Fin cfg0.N) (q j : Fin 512) :
    Ideal.logistic (band (blockAt m c 0 t) (blockAt m c 1 t) (blockAt m c 2 t) (blockAt m c 3 t) (blockAt m c 4 t) (blockAt m c 5 t) q (colX 1024 (by omega) j) (colH 1024 (by omega) j))
      = gate (R := 16384) (m ((c : Thread nD τ).loc main_arg0) : S16384x1024.Idx → Elt Ideal .f32) (m ((c : Thread nD τ).loc main_arg1) : S16384x512.Idx → Elt Ideal .f32) (m ((c : Thread nD τ).loc main_arg2) : S16384x512.Idx → Elt Ideal .f32) (m ((c : Thread nD τ).loc main_arg5) : S512x1024.Idx → Elt Ideal .f32) (m ((c : Thread nD τ).loc main_arg9) : S512x512.Idx → Elt Ideal .f32) (m ((c : Thread nD τ).loc main_arg13) : S512x512.Idx → Elt Ideal .f32) (row t q) j := by
  unfold gate
  rw [band_eq_of m c t (m ((c : Thread nD τ).loc main_arg5) : S512x1024.Idx → Elt Ideal .f32) (m ((c : Thread nD τ).loc main_arg9) : S512x512.Idx → Elt Ideal .f32) (m ((c : Thread nD τ).loc main_arg13) : S512x512.Idx → Elt Ideal .f32) q j _ _
    (fun k => wxBlock_apply m c t 2 k j _ (by show 1024 + j.val = 512 * 2 + j.val; omega))
    (fun k => whBlock_apply m c t 2 k j _ (by show 1024 + j.val = 512 * 2 + j.val; omega))
    (fun k => wvBlock_apply m c t 2 k j _ (by show 1024 + j.val = 512 * 2 + j.val; omega))]

/-- The fourth band of the encoder product (offset 1536) is the candidate's x-part: if the tile's rows are rows `p` of
    `X` and the band's column holds row `j` of `W`, the product's entry is `X Wᵀ` at `(p, j)`. -/
theorem candidateX_of (enc : Vec Ideal S512x1024 .f32) (wx : Vec Ideal S1024x2048 .bf16) (X : Mat 16384 1024)
    (W : Mat 512 1024) (p : Fin 16384) (q j : Fin 512) (n : Fin 2048)
    (henc : ∀ k, enc (ix2 q k) = X (ix2 p k)) (hwx : ∀ k, wx (ix2 k n) = W (ix2 j k)) :
    (∑ k : Fin 1024, enc (ix2 q k) * wx (ix2 k n)) = lin (R := 16384) (K := 1024) (C := 512) X W p j := by
  unfold lin
  exact Finset.sum_congr rfl fun k _ => by rw [henc, hwx]

/-! ## The tile is the cell -/

/-- Entry `(q, j)` of the tile the body leaves at point `t` is the cell of the argument arrays at `(512·t + q, j)`. -/
theorem tile_is_cell (c : Dev nD) (t : Fin cfg0.N) (q j : Fin 512) :
    cellTile (blockAt m c 0 t) (blockAt m c 1 t) (blockAt m c 2 t) (blockAt m c 3 t) (blockAt m c 4 t) (blockAt m c 5 t) (blockAt m c 6 t) (blockAt m c 7 t) (ix2 q j)
      = cell (R := 16384)
        (m ((c : Thread nD τ).loc main_arg0) : S16384x1024.Idx → Elt Ideal .f32)
        (m ((c : Thread nD τ).loc main_arg1) : S16384x512.Idx → Elt Ideal .f32)
        (m ((c : Thread nD τ).loc main_arg2) : S16384x512.Idx → Elt Ideal .f32)
        (m ((c : Thread nD τ).loc main_arg3) : S512x1024.Idx → Elt Ideal .f32)
        (m ((c : Thread nD τ).loc main_arg4) : S512x1024.Idx → Elt Ideal .f32)
        (m ((c : Thread nD τ).loc main_arg5) : S512x1024.Idx → Elt Ideal .f32)
        (m ((c : Thread nD τ).loc main_arg6) : S512x1024.Idx → Elt Ideal .f32)
        (m ((c : Thread nD τ).loc main_arg7) : S512x512.Idx → Elt Ideal .f32)
        (m ((c : Thread nD τ).loc main_arg8) : S512x512.Idx → Elt Ideal .f32)
        (m ((c : Thread nD τ).loc main_arg9) : S512x512.Idx → Elt Ideal .f32)
        (m ((c : Thread nD τ).loc main_arg10) : S512x512.Idx → Elt Ideal .f32)
        (m ((c : Thread nD τ).loc main_arg11) : S512x512.Idx → Elt Ideal .f32)
        (m ((c : Thread nD τ).loc main_arg12) : S512x512.Idx → Elt Ideal .f32)
        (m ((c : Thread nD τ).loc main_arg13) : S512x512.Idx → Elt Ideal .f32)
        (m ((c : Thread nD τ).loc main_arg14) : S512x512.Idx → Elt Ideal .f32)
        (row t q) j := by
  rw [cellTile_apply _ _ _ _ _ _ _ _ (colX 0 (by omega)) (colX 512 (by omega)) (colX 1024 (by omega)) (colX 1536 (by omega))
    (colH 0 (by omega)) (colH 512 (by omega)) (colH 1024 (by omega))
    (fun _ => rfl) (fun _ => rfl) (fun _ => rfl) (fun _ => rfl) (fun _ => rfl) (fun _ => rfl) (fun _ => rfl) q j]
  unfold cell
  rw [candidateX_of (blockAt m c 0 t) (blockAt m c 3 t) (m ((c : Thread nD τ).loc main_arg0) : S16384x1024.Idx → Elt Ideal .f32) (m ((c : Thread nD τ).loc main_arg6) : S512x1024.Idx → Elt Ideal .f32) (row t q) q j (colX 1536 (by omega) j)
    (fun k => encBlock_apply m c t q k)
    (fun k => wxBlock_apply m c t 3 k j _ (by show 1536 + j.val = 512 * 3 + j.val; omega))]
  simp only [update_gate, resetSpk_gate, resetAdr_gate, spkBlock_apply, adrBlock_apply, uhBlock_apply, uvBlock_apply]

/-! ## From the tiles to the array -/

/-- The output array's contents after the run: the cell of the argument arrays, entry by entry. -/
def result (c : Dev nD) : S16384x512.Idx → Elt Ideal .f32 := fun i =>
  cell (R := 16384)
        (m ((c : Thread nD τ).loc main_arg0) : S16384x1024.Idx → Elt Ideal .f32)
        (m ((c : Thread nD τ).loc main_arg1) : S16384x512.Idx → Elt Ideal .f32)
        (m ((c : Thread nD τ).loc main_arg2) : S16384x512.Idx → Elt Ideal .f32)
        (m ((c : Thread nD τ).loc main_arg3) : S512x1024.Idx → Elt Ideal .f32)
        (m ((c : Thread nD τ).loc main_arg4) : S512x1024.Idx → Elt Ideal .f32)
        (m ((c : Thread nD τ).loc main_arg5) : S512x1024.Idx → Elt Ideal .f32)
        (m ((c : Thread nD τ).loc main_arg6) : S512x1024.Idx → Elt Ideal .f32)
        (m ((c : Thread nD τ).loc main_arg7) : S512x512.Idx → Elt Ideal .f32)
        (m ((c : Thread nD τ).loc main_arg8) : S512x512.Idx → Elt Ideal .f32)
        (m ((c : Thread nD τ).loc main_arg9) : S512x512.Idx → Elt Ideal .f32)
        (m ((c : Thread nD τ).loc main_arg10) : S512x512.Idx → Elt Ideal .f32)
        (m ((c : Thread nD τ).loc main_arg11) : S512x512.Idx → Elt Ideal .f32)
        (m ((c : Thread nD τ).loc main_arg12) : S512x512.Idx → Elt Ideal .f32)
        (m ((c : Thread nD τ).loc main_arg13) : S512x512.Idx → Elt Ideal .f32)
        (m ((c : Thread nD τ).loc main_arg14) : S512x512.Idx → Elt Ideal .f32)
        (i 0) (i 1)

/-- What point `t` writes back is block `t` of `result`. -/
theorem written_back (c : Dev nD) (t : Fin cfg0.N) :
    (tiles m 0 c).flushed 8 t = ((cfg0.win 8).blk t).view.read (Elt Ideal) (result m c) := by
  show (cfg0.win 8).cut (grid0.coords t) ((tiles m 0 c).after 8 t) = _
  rw [left8]
  funext y
  obtain ⟨q, j, rfl⟩ : ∃ (q : Fin 512) (j : Fin 512), y = ix2 q j := ⟨y 0, y 1, eq_ix2 y⟩
  show cellTile (blockAt m c 0 t) (blockAt m c 1 t) (blockAt m c 2 t) (blockAt m c 3 t) (blockAt m c 4 t) (blockAt m c 5 t) (blockAt m c 6 t) (blockAt m c 7 t) (ix2 q j) = result m c (((cfg0.win 8).blk t).view.emb (ix2 q j))
  rw [tile_is_cell]
  obtain ⟨-, -, -, -, -, -, -, -, -, -, -, -, -, -, -, -, e0, e1⟩ := index_facts t
  unfold result
  congr 1 <;> apply Fin.ext
  · show 512 * t.val + q.val = win0_8.index t (0 : Fin 2) * 512 + 1 * q.val; omega
  · show j.val = win0_8.index t (1 : Fin 2) * 512 + 1 * j.val; omega

/-- An index of the output array is in point `t`'s block iff each coordinate is in the block's range on its axis. -/
theorem in_block (t : Fin cfg0.N) (i : S16384x512.Idx) :
    i ∈ ((cfg0.win 8).blk t).view.set ↔ ∀ a : Fin 2, win0_8.index t a * S512x512.size a ≤ (i a).val
      ∧ (i a).val < win0_8.index t a * S512x512.size a + S512x512.size a := by
  show i ∈ ((View.whole main_v13).slice (win0_8.rect t)).set ↔ _
  rw [View.set_slice_whole, Rect.mem_set_unit]
  exact Iff.rfl

/-- Row `r` of the output lies in the block of point `r / 512`, which is written back. -/
theorem every_row_written (i : S16384x512.Idx) :
    ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 32 := N_0
  have ht : (i 0).val / 512 < cfg0.N := by omega
  obtain ⟨-, -, -, -, -, -, -, -, -, -, -, -, -, -, -, -, e0, e1⟩ := index_facts ⟨(i 0).val / 512, ht⟩
  refine ⟨⟨(i 0).val / 512, ht⟩, flush0_8 _, ?_⟩
  rw [in_block]
  intro a
  match a with
  | ⟨0, _⟩ =>
    show win0_8.index ⟨(i 0).val / 512, ht⟩ (0 : Fin 2) * 512 ≤ (i 0).val
      ∧ (i 0).val < win0_8.index ⟨(i 0).val / 512, ht⟩ (0 : Fin 2) * 512 + 512
    have e0' : win0_8.index ⟨(i 0).val / 512, ht⟩ (0 : Fin 2) = (i 0).val / 512 := e0
    omega
  | ⟨1, _⟩ =>
    show win0_8.index ⟨(i 0).val / 512, ht⟩ (1 : Fin 2) * 512 ≤ (i 1).val
      ∧ (i 1).val < win0_8.index ⟨(i 0).val / 512, ht⟩ (1 : Fin 2) * 512 + 512
    omega

/-- The output array after the run. -/
theorem output_array (c : Dev nD) : (tiles m 0 c).arrAt 8 cfg0.N = result m c :=
  (tiles m 0 c).arrAt_eq_of_cover 8 (result m c) (fun t _ => written_back m c t) every_row_written

/-! ## The run, read -/

/-- Every weakly fair execution of @main terminates with the output array at `result` of the launch contents and the
    fifteen argument arrays unchanged. -/
theorem run : θ_run defs (onTc (τ := τ) (main (F := Ideal))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 8).trans (output_array m c),
      ((h c).1 0).trans (((tiles m 0 c).arrAt_in 0 rfl _).trans ((entry_arrays m c 0).trans (entry_arg0 m c))),
      ((h c).1 1).trans (((tiles m 0 c).arrAt_in 1 rfl _).trans ((entry_arrays m c 1).trans (entry_arg1 m c))),
      ((h c).1 2).trans (((tiles m 0 c).arrAt_in 2 rfl _).trans ((entry_arrays m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c)⟩)
    (region_runs m ρ)

end Cert.KernelIdeal.CellValue

end
-- ==== Proof.RefCell.lean ====
/-
  The reference's result, entry by entry.

  The reference computes twelve linear maps `x Wᵀ` as a transpose of the weight followed by a plain matrix
  product, three gates `1 / (1 + exp (-a))` of a sum of three maps each, the candidate state by `tanh`, and the
  interpolation `(1 - z) · spk + z · h`. Here its composed result is rebuilt from three small pieces — a linear
  map, a gate, the cell — and each piece is read at `(p, c)`: a plain product is the sum over the contracted
  coordinate, a transposed weight read at `(k, c)` is the weight at `(c, k)`, the broadcast constant is `1`, and
  `1 / (1 + exp (-a))` is the logistic function's own definition on the extended reals. The result at `(p, c)` is
  `CellSpec.cell` of the fifteen arguments.
-/
import proofs.«138240_j61778809585745_2_alg».proof.Proof.Gen.ReferenceIdeal.Run
import proofs.«138240_j61778809585745_2_alg».proof.Proof.LibPlainDot
import proofs.«138240_j61778809585745_2_alg».proof.Proof.CellSpec
import Idealize.ShloMosaic.Lib.Pipeline.Value
import Idealize.ShloMosaic.Lib.ValueIdx

set_option maxRecDepth 16384

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen Cert.CellSpec

theorem plain_x : PlainDot.IsPlain dot_S16384x1024_S1024x512_S16384x512_1_0_0_1_n_n := ⟨rfl, rfl, rfl, rfl, rfl, rfl⟩
theorem plain_h : PlainDot.IsPlain dot_S16384x512_S512x512_S16384x512_1_0_0_1_n_n := ⟨rfl, rfl, rfl, rfl, rfl, rfl⟩

/-! ## The pieces -/

/-- `x Wᵀ` for a weight of width 1024: the weight transposed, then the plain product. -/
def linX (x : FVec Ideal S16384x1024 .f32) (W : FVec Ideal S512x1024 .f32) : FVec Ideal S16384x512 .f32 :=
  Host.dotGeneral dot_S16384x1024_S1024x512_S16384x512_1_0_0_1_n_n none x
    (transpose S1024x512 [1, 0] W transposes_S512x1024_S1024x512_1_0)

/-- `x Wᵀ` for a weight of width 512. -/
def linH (x : FVec Ideal S16384x512 .f32) (W : FVec Ideal S512x512 .f32) : FVec Ideal S16384x512 .f32 :=
  Host.dotGeneral dot_S16384x512_S512x512_S16384x512_1_0_0_1_n_n none x
    (transpose S512x512 [1, 0] W transposes_S512x512_S512x512_1_0)

/-- The constant `1.0` broadcast over the result's shape. -/
def ones : FVec Ideal S16384x512 .f32 :=
  broadcastInDim S16384x512 ![] bcast_S_S16384x512 (constant S_ .f32 0x3F800000#32)

/-- A gate as the reference spells it: `1 / (1 + exp (-((enc·Wx + spk·Wh) + adr·Wv)))`. -/
def gateArr (x0 : FVec Ideal S16384x1024 .f32) (x1 x2 : FVec Ideal S16384x512 .f32) (Wx : FVec Ideal S512x1024 .f32)
    (Wh Wv : FVec Ideal S512x512 .f32) : FVec Ideal S16384x512 .f32 :=
  Host.divf ones (addf ones (Host.exp (Host.negf (addf (addf (linX x0 Wx) (linH x1 Wh)) (linH x2 Wv)))))

/-- The reference's result as an array. -/
def cellArr (x0 : FVec Ideal S16384x1024 .f32) (x1 x2 : FVec Ideal S16384x512 .f32) (x3 x4 x5 x6 : FVec Ideal S512x1024 .f32)
    (x7 x8 x9 x10 x11 x12 x13 x14 : FVec Ideal S512x512 .f32) : FVec Ideal S16384x512 .f32 :=
  addf (mulf (subf ones (gateArr x0 x1 x2 x5 x9 x13)) x1)
    (mulf (gateArr x0 x1 x2 x5 x9 x13)
      (Host.tanh (addf (addf (linX x0 x6) (linH (mulf (gateArr x0 x1 x2 x3 x7 x11) x1) x10))
        (linH (mulf (gateArr x0 x1 x2 x4 x8 x12) x2) x14))))

/-- The run's composed term is that array of the arguments' launch contents. -/
theorem result_is_cellArr (m : (ℓ : Loc nD τ sig) → Buf (Elt Ideal) ℓ) (c : Dev nD) :
    @Eq (FVec Ideal S16384x512 .f32) (Cert.ReferenceIdeal.Value.res_main_v57 m c)
      (cellArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) := by
  unfold Cert.ReferenceIdeal.Value.res_main_v57 cellArr gateArr linX linH ones
  rfl

/-! ## The pieces read at an entry -/

theorem linX_apply (x : FVec Ideal S16384x1024 .f32) (W : FVec Ideal S512x1024 .f32) (p : Fin 16384) (c : Fin 512) :
    linX x W (ix2 p c) = lin (R := 16384) (K := 1024) (C := 512) x W p c := by
  unfold linX lin
  refine (PlainDot.dotGeneral_apply plain_x none x _ p c).trans (Finset.sum_congr rfl fun k _ => ?_)
  rw [transpose_apply [1, 0] W transposes_S512x1024_S1024x512_1_0 (ix2 k c) (ix2 c k)
    (fun b => match b with | ⟨0, _⟩ => rfl | ⟨1, _⟩ => rfl)]

theorem linH_apply (x : FVec Ideal S16384x512 .f32) (W : FVec Ideal S512x512 .f32) (p : Fin 16384) (c : Fin 512) :
    linH x W (ix2 p c) = lin (R := 16384) (K := 512) (C := 512) x W p c := by
  unfold linH lin
  refine (PlainDot.dotGeneral_apply plain_h none x _ p c).trans (Finset.sum_congr rfl fun k _ => ?_)
  rw [transpose_apply [1, 0] W transposes_S512x512_S512x512_1_0 (ix2 k c) (ix2 c k)
    (fun b => match b with | ⟨0, _⟩ => rfl | ⟨1, _⟩ => rfl)]

theorem ones_apply (i : S16384x512.Idx) : ones i = 1 := by
  unfold ones
  rw [broadcastInDim_apply (s := S_) ![] bcast_S_S16384x512 (constant (F := Ideal) S_ .f32 0x3F800000#32) i (fun a => a.elim0)
    (fun a => a.elim0)]
  exact one_eq

/-- The reference's `1 / (1 + exp (-a))` is the logistic function of the gate's pre-activation. -/
theorem gateArr_apply (x0 : FVec Ideal S16384x1024 .f32) (x1 x2 : FVec Ideal S16384x512 .f32) (Wx : FVec Ideal S512x1024 .f32)
    (Wh Wv : FVec Ideal S512x512 .f32) (p : Fin 16384) (c : Fin 512) :
    gateArr x0 x1 x2 Wx Wh Wv (ix2 p c) = gate (R := 16384) x0 x1 x2 Wx Wh Wv p c := by
  unfold gateArr gate
  show Ideal.div (ones (ix2 p c))
      (ones (ix2 p c) + Ideal.exp (-((linX x0 Wx (ix2 p c) + linH x1 Wh (ix2 p c)) + linH x2 Wv (ix2 p c)))) = _
  rw [ones_apply, linX_apply, linH_apply, linH_apply]
  rfl

/-- The reference's result at `(p, c)` is the cell of its fifteen arguments. -/
theorem cellArr_apply (x0 : FVec Ideal S16384x1024 .f32) (x1 x2 : FVec Ideal S16384x512 .f32)
    (x3 x4 x5 x6 : FVec Ideal S512x1024 .f32) (x7 x8 x9 x10 x11 x12 x13 x14 : FVec Ideal S512x512 .f32)
    (p : Fin 16384) (c : Fin 512) :
    cellArr x0 x1 x2 x3 x4 x5 x6 x7 x8 x9 x10 x11 x12 x13 x14 (ix2 p c)
      = cell (R := 16384) x0 x1 x2 x3 x4 x5 x6 x7 x8 x9 x10 x11 x12 x13 x14 p c := by
  unfold cellArr cell
  show (ones (ix2 p c) - gateArr x0 x1 x2 x5 x9 x13 (ix2 p c)) * x1 (ix2 p c)
      + gateArr x0 x1 x2 x5 x9 x13 (ix2 p c)
        * Ideal.tanh ((linX x0 x6 (ix2 p c) + linH (mulf (gateArr x0 x1 x2 x3 x7 x11) x1) x10 (ix2 p c))
            + linH (mulf (gateArr x0 x1 x2 x4 x8 x12) x2) x14 (ix2 p c)) = _
  rw [ones_apply, gateArr_apply, linX_apply, linH_apply, linH_apply]
  simp only [lin, mulf_apply, gateArr_apply]

end Cert.ReferenceIdeal.RefValue

end
-- ==== Proof.lean ====
/-
  A four-gate recurrent cell that updates speaker vectors, computed by a tiled kernel, against its plain reference.

  For a batch of 16384 rows — encoder states (width 1024), speaker vectors `spk` and addressee vectors `adr` (width
  512) — and twelve bias-free linear maps `x ↦ x Wᵀ`, the reference computes two reset gates `r`, `p` and an update
  gate `z`, each the logistic function of `(enc·Wx + spk·Wh) + adr·Wv`, the candidate
  `h = tanh ((enc·Wxh + (r ∘ spk)·Whh) + (p ∘ adr)·Vhh)`, and returns `(1 - z) · spk + z · h`.

  The kernel does the same on 32 tiles of 512 rows. Outside the kernel the x-gate matrices are stacked, transposed
  and narrowed to bf16 once, and likewise the speaker-side and the addressee-side gate matrices; inside, three wide
  products give all gates' pre-activations as column bands, two further products give the candidate, and the
  logistic function is one operation where the reference spells `1 / (1 + exp (-a))`.

  On the extended reals the two are one function, entry by entry. Narrowing is the identity; a product into a zero
  accumulator and the reference's `dot_general` are the same sum over the contracted coordinate; column `512·g + j`
  of a stack is row `j` of its piece `g`; the logistic function IS `1 / (1 + exp (-a))`; `tanh` is `tanh`; the literal
  `1.0` is `1`. Every sum is grouped the same way on both sides and nothing is distributed or cancelled, so the
  equality holds at infinite entries too and the precondition (finite inputs) is never used.

  The three programs run to the end, fault nowhere and leave their fifteen argument arrays unchanged: for the two
  kernels by the pipeline's frame run over the body's triple at a generic grid point (the body reads eight staging
  buffers and overwrites the ninth), for the reference by its run as a straight line of host operations. No rewrite
  separates the kernel from its idealization, so that claim is `True`.
-/
import proofs.«138240_j61778809585745_2_alg».proof.Defs
import proofs.«138240_j61778809585745_2_alg».proof.Proof.WCellRun
import proofs.«138240_j61778809585745_2_alg».proof.Proof.ICellValue
import proofs.«138240_j61778809585745_2_alg».proof.Proof.RefCell
import proofs.«138240_j61778809585745_2_alg».proof.Proof.Gen.Kernel
import proofs.«138240_j61778809585745_2_alg».proof.Proof.Gen.KernelIdeal
import proofs.«138240_j61778809585745_2_alg».proof.Proof.Gen.ReferenceIdeal
import proofs.«138240_j61778809585745_2_alg».proof.Proof.Gen.Pre_finite_inputs
import Idealize.ShloMosaic.Adequacy
import Idealize.ShloMosaic.Init

set_option maxRecDepth 16384

noncomputable section

namespace Cert.Proof

open Idealize.ShloMosaic Idealize.SL.Sem Idealize.ShloMosaic.ValueIdx

/-- The kernel as printed runs, and keeps its arguments. -/
theorem frame_word : Cert.frame_Kernel := fun m ρ _ => Cert.Kernel.Cell.frame m ρ

/-- So does its idealization. -/
theorem frame_ideal : Cert.frame_KernelIdeal := fun m ρ _ => Cert.KernelIdeal.Cell.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the fifteen arguments, the idealized kernel's output array and the reference's result
    both end at the cell of the arguments, entry by entry. -/
theorem algebraic : Cert.algebraic_KernelIdeal_ReferenceIdeal := by
  intro m ρ m' ρ' _ hagree
  refine ⟨fun c => Cert.KernelIdeal.CellValue.result m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  refine (Cert.ReferenceIdeal.RefValue.result_is_cellArr m' c).trans ?_
  rw [h0, h1, h2, h3, h4, h5, h6, h7, h8, h9, h10, h11, h12, h13, h14]
  funext i
  obtain ⟨p, j, rfl⟩ : ∃ (p : Fin 16384) (j : Fin 512), i = ix2 p j := ⟨i 0, i 1, eq_ix2 i⟩
  exact Cert.ReferenceIdeal.RefValue.cellArr_apply _ _ _ _ _ _ _ _ _ _ _ _ _ _ _ p j

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
